-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.truncf_extf.Statement Cert.KernelIdeal.S1024x784 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S768x784 : Shape := ⟨2, ![768, 784]⟩
abbrev S768 : Shape := ⟨1, ![768]⟩
abbrev S768x768 : Shape := ⟨2, ![768, 768]⟩
abbrev S10x768 : Shape := ⟨2, ![10, 768]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S768x784 : S_.BroadcastsInDim S768x784 (![] : Fin 0 → Fin S768x784.rank)
  reducesTo_S768x784_S_d0_1 : S768x784.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S10x768 : S_.BroadcastsInDim S10x768 (![] : Fin 0 → Fin S10x768.rank)
  reducesTo_S10x768_S_d0_1 : S10x768.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg12 : FVec F S768 .f32) (main_arg16 : FVec F S768 .f32) (main_arg20 : FVec F S768 .f32) (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  let main_cst_40 : FVec F S_ .f32 := constant S_ .f32 0x00000000#32
  let main_v104 : FVec F S768 .f32 := broadcastInDim S768 ![] bcast_S_S768 main_cst_40
  let main_v105 : IVec S768 1 := cmpf .oge main_arg12 main_v104
  let main_c_41 : IVec S_ 1 := constantI S_ 1 1#1
  let main_v106 : IVec S_ 1 := (fun x v => Host.reduce IntOp.andi x v reducesTo_S768_S_d0 h_S_) main_v105 main_c_41
  let main_v107 : IVec S_ 1 := andi main_v103 main_v106
  let main_cst_42 : FVec F S_ .f32 := constant S_ .f32 0x00000000#32
  let main_v108 : FVec F S768 .f32 := broadcastInDim S768 ![] bcast_S_S768 main_cst_42
  let main_v109 : IVec S768 1 := cmpf .oge main_arg16 main_v108
  let main_c_43 : IVec S_ 1 := constantI S_ 1 1#1
  let main_v110 : IVec S_ 1 := (fun x v => Host.reduce IntOp.andi x v reducesTo_S768_S_d0 h_S_) main_v109 main_c_43
  let main_v111 : IVec S_ 1 := andi main_v107 main_v110
  let main_cst_44 : FVec F S_ .f32 := constant S_ .f32 0x00000000#32
  let main_v112 : FVec F S768 .f32 := broadcastInDim S768 ![] bcast_S_S768 main_cst_44
  let main_v113 : IVec S768 1 := cmpf .oge main_arg20 main_v112
  let main_c_45 : IVec S_ 1 := constantI S_ 1 1#1
  let main_v114 : IVec S_ 1 := (fun x v => Host.reduce IntOp.andi x v reducesTo_S768_S_d0 h_S_) main_v113 main_c_45
  let main_v115 : IVec S_ 1 := andi main_v111 main_v114
  main_v115

def fn_part5 {F : FTy → Type} [FloatOps F] (main_arg12 : FVec F S768 .f32) (main_arg16 : FVec F S768 .f32) (main_arg18 : FVec F S768 .f32) (main_arg19 : FVec F S768 .f32) (main_arg20 : FVec F S768 .f32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768 .f32 := Host.absf main_arg18
  let main_cst_34 : FVec F S_ .f32 := constant S_ .f32 0x7F800000#32
  let main_v90 : FVec F S768 .f32 := broadcastInDim S768 ![] bcast_S_S768 main_cst_34
  let main_v91 : IVec S768 1 := cmpf .olt main_v89 main_v90
  let main_c_35 : IVec S_ 1 := constantI S_ 1 1#1
  let main_v92 : IVec S_ 1 := (fun x v => Host.reduce IntOp.andi x v reducesTo_S768_S_d0 h_S_) main_v91 main_c_35
  let main_v93 : IVec S_ 1 := andi main_v88 main_v92
  let main_v94 : FVec F S768 .f32 := Host.absf main_arg19
  let main_cst_36 : FVec F S_ .f32 := constant S_ .f32 0x7F800000#32
  let main_v95 : FVec F S768 .f32 := broadcastInDim S768 ![] bcast_S_S768 main_cst_36
  let main_v96 : IVec S768 1 := cmpf .olt main_v94 main_v95
  let main_c_37 : IVec S_ 1 := constantI S_ 1 1#1
  let main_v97 : IVec S_ 1 := (fun x v => Host.reduce IntOp.andi x v reducesTo_S768_S_d0 h_S_) main_v96 main_c_37
  let main_v98 : IVec S_ 1 := andi main_v93 main_v97
  let main_v99 : FVec F S768 .f32 := Host.absf main_arg20
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_arg12 main_arg16 main_arg20 main_v98 main_v101 main_c_39

def fn_part4 {F : FTy → Type} [FloatOps F] (main_arg12 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v63 : IVec S_ 1) (main_v67 : IVec S_ 1) : IVec S_ 1 :=
  let main_v68 : IVec S_ 1 := andi main_v63 main_v67
  let main_v69 : FVec F S768 .f32 := Host.absf main_arg14
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768 .f32 := Host.absf main_arg15
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S768 .f32 := Host.absf main_arg16
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg12 main_arg16 main_arg18 main_arg19 main_arg20 main_v83 main_v84 main_cst_32

def fn_part3 {F : FTy → Type} [FloatOps F] (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg12 main_arg14 main_arg15 main_arg16 main_arg17 main_arg18 main_arg19 main_arg20 main_v63 main_v67

def fn_part2 {F : FTy → Type} [FloatOps F] (main_arg7 : FVec F S10x768 .f32) (main_arg8 : FVec F S10 .f32) (main_arg9 : FVec F S768 .f32) (main_arg10 : FVec F S768 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v33 : IVec S_ 1) : IVec S_ 1 :=
  let main_v34 : FVec F S10x768 .f32 := Host.absf main_arg7
  let main_cst_12 : FVec F S_ .f32 := constant S_ .f32 0x7F800000#32
  let main_v35 : FVec F S10x768 .f32 := broadcastInDim S10x768 ![] bcast_S_S10x768 main_cst_12
  let main_v36 : IVec S10x768 1 := cmpf .olt main_v34 main_v35
  let main_c_13 : IVec S_ 1 := constantI S_ 1 1#1
  let main_v37 : IVec S_ 1 := (fun x v => Host.reduce IntOp.andi x v reducesTo_S10x768_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S768 .f32) (main_arg5 : FVec F S768x768 .f32) (main_arg6 : FVec F S768 .f32) (main_arg7 : FVec F S10x768 .f32) (main_arg8 : FVec F S10 .f32) (main_arg9 : FVec F S768 .f32) (main_arg10 : FVec F S768 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x784 .f32) (main_arg1 : FVec F S768x784 .f32) (main_arg2 : FVec F S768 .f32) (main_arg3 : FVec F S768x768 .f32) (main_arg4 : FVec F S768 .f32) (main_arg5 : FVec F S768x768 .f32) (main_arg6 : FVec F S768 .f32) (main_arg7 : FVec F S10x768 .f32) (main_arg8 : FVec F S10 .f32) (main_arg9 : FVec F S768 .f32) (main_arg10 : FVec F S768 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S768x784 .f32 := Host.absf main_arg1
  let main_cst_0 : FVec F S_ .f32 := constant S_ .f32 0x7F800000#32
  let main_v5 : FVec F S768x784 .f32 := broadcastInDim S768x784 ![] bcast_S_S768x784 main_cst_0
  let main_v6 : IVec S768x784 1 := cmpf .olt main_v4 main_v5
  let main_c_1 : IVec S_ 1 := constantI S_ 1 1#1
  let main_v7 : IVec S_ 1 := (fun x v => Host.reduce IntOp.andi x v reducesTo_S768x784_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x784 : Shape := ⟨2, ![16384, 784]⟩
abbrev S768x784 : Shape := ⟨2, ![768, 784]⟩
abbrev S768 : Shape := ⟨1, ![768]⟩
abbrev S768x768 : Shape := ⟨2, ![768, 768]⟩
abbrev S10x768 : Shape := ⟨2, ![10, 768]⟩
abbrev S10 : Shape := ⟨1, ![10]⟩
abbrev S_ : Shape := ⟨0, ![]⟩
abbrev S1x768 : Shape := ⟨2, ![1, 768]⟩
abbrev S1x10 : Shape := ⟨2, ![1, 10]⟩
abbrev S16384x10 : Shape := ⟨2, ![16384, 10]⟩
abbrev S1024x784 : Shape := ⟨2, ![1024, 784]⟩
abbrev S1024x10 : Shape := ⟨2, ![1024, 10]⟩
abbrev S784x768 : Shape := ⟨2, ![784, 768]⟩
abbrev S1024x768 : Shape := ⟨2, ![1024, 768]⟩
abbrev S768x10 : Shape := ⟨2, ![768, 10]⟩
abbrev S1024 : Shape := ⟨1, ![1024]⟩
abbrev S1024x1 : Shape := ⟨2, ![1024, 1]⟩

abbrev nBuf : Space → Nat
  | .hbm => 81
  | .vmem => 18
  | .smem => 0
  | _ => 0

abbrev bufTy : (tb : Table) → Fin (tcTables nBuf tb) → BufTy
  | .hbm, ⟨0, _⟩ => ⟨S16384x784, .f32⟩
  | .hbm, ⟨1, _⟩ => ⟨S768x784, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S10x768, .f32⟩
  | .hbm, ⟨8, _⟩ => ⟨S10, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S_, .f32⟩
  | .hbm, ⟨22, _⟩ => ⟨S768x784, .f32⟩
  | .hbm, ⟨23, _⟩ => ⟨S768x784, .i1⟩
  | .hbm, ⟨24, _⟩ => ⟨S_, .f32⟩
  | .hbm, ⟨25, _⟩ => ⟨S_, .f32⟩
  | .hbm, ⟨26, _⟩ => ⟨S768x784, .f32⟩
  | .hbm, ⟨27, _⟩ => ⟨S768x784, .f32⟩
  | .hbm, ⟨28, _⟩ => ⟨S768x784, .f32⟩
  | .hbm, ⟨29, _⟩ => ⟨S768x784, .bf16⟩
  | .hbm, ⟨30, _⟩ => ⟨S_, .f32⟩
  | .hbm, ⟨31, _⟩ => ⟨S768x768, .f32⟩
  | .hbm, ⟨32, _⟩ => ⟨S768x768, .i1⟩
  | .hbm, ⟨33, _⟩ => ⟨S_, .f32⟩
  | .hbm, ⟨34, _⟩ => ⟨S_, .f32⟩
  | .hbm, ⟨35, _⟩ => ⟨S768x768, .f32⟩
  | .hbm, ⟨36, _⟩ => ⟨S768x768, .f32⟩
  | .hbm, ⟨37, _⟩ => ⟨S768x768, .f32⟩
  | .hbm, ⟨38, _⟩ => ⟨S768x768, .bf16⟩
  | .hbm, ⟨39, _⟩ => ⟨S_, .f32⟩
  | .hbm, ⟨40, _⟩ => ⟨S768x768, .f32⟩
  | .hbm, ⟨41, _⟩ => ⟨S768x768, .i1⟩
  | .hbm, ⟨42, _⟩ => ⟨S_, .f32⟩
  | .hbm, ⟨43, _⟩ => ⟨S_, .f32⟩
  | .hbm, ⟨44, _⟩ => ⟨S768x768, .f32⟩
  | .hbm, ⟨45, _⟩ => ⟨S768x768, .f32⟩
  | .hbm, ⟨46, _⟩ => ⟨S768x768, .f32⟩
  | .hbm, ⟨47, _⟩ => ⟨S768x768, .bf16⟩
  | .hbm, ⟨48, _⟩ => ⟨S10x768, .bf16⟩
  | .hbm, ⟨49, _⟩ => ⟨S_, .f32⟩
  | .hbm, ⟨50, _⟩ => ⟨S768, .f32⟩
  | .hbm, ⟨51, _⟩ => ⟨S768, .f32⟩
  | .hbm, ⟨52, _⟩ => ⟨S768, .f32⟩
  | .hbm, ⟨53, _⟩ => ⟨S768, .f32⟩
  | .hbm, ⟨54, _⟩ => ⟨S768, .f32⟩
  | .hbm, ⟨55, _⟩ => ⟨S768, .f32⟩
  | .hbm, ⟨56, _⟩ => ⟨S_, .f32⟩
  | .hbm, ⟨57, _⟩ => ⟨S768, .f32⟩
  | .hbm, ⟨58, _⟩ => ⟨S768, .f32⟩
  | .hbm, ⟨59, _⟩ => ⟨S768, .f32⟩
  | .hbm, ⟨60, _⟩ => ⟨S768, .f32⟩
  | .hbm, ⟨61, _⟩ => ⟨S768, .f32⟩
  | .hbm, ⟨62, _⟩ => ⟨S768, .f32⟩
  | .hbm, ⟨63, _⟩ => ⟨S_, .f32⟩
  | .hbm, ⟨64, _⟩ => ⟨S768, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S768, .f32⟩
  | .hbm, ⟨69, _⟩ => ⟨S768, .f32⟩
  | .hbm, ⟨70, _⟩ => ⟨S1x768, .f32⟩
  | .hbm, ⟨71, _⟩ => ⟨S1x768, .f32⟩
  | .hbm, ⟨72, _⟩ => ⟨S1x768, .f32⟩
  | .hbm, ⟨73, _⟩ => ⟨S1x10, .f32⟩
  | .hbm, ⟨74, _⟩ => ⟨S1x768, .f32⟩
  | .hbm, ⟨75, _⟩ => ⟨S1x768, .f32⟩
  | .hbm, ⟨76, _⟩ => ⟨S1x768, .f32⟩
  | .hbm, ⟨77, _⟩ => ⟨S1x768, .f32⟩
  | .hbm, ⟨78, _⟩ => ⟨S1x768, .f32⟩
  | .hbm, ⟨79, _⟩ => ⟨S1x768, .f32⟩
  | .hbm, ⟨80, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S768x784, .bf16⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S768x768, .bf16⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S10x768, .bf16⟩
  | .local _ .vmem, ⟨15, _⟩ => ⟨S1x10, .f32⟩
  | .local _ .vmem, ⟨16, _⟩ => ⟨S1024x10, .f32⟩
  | .local _ .vmem, ⟨17, _⟩ => ⟨S1024x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_cst_2 : Ref sig .tc := ⟨.hbm, 30, rfl⟩
abbrev main_v4 : Ref sig .tc := ⟨.hbm, 31, rfl⟩
abbrev main_v5 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v6 : Ref sig .tc := ⟨.hbm, 37, rfl⟩
abbrev main_v7 : Ref sig .tc := ⟨.hbm, 38, rfl⟩
abbrev main_cst_5 : Ref sig .tc := ⟨.hbm, 39, rfl⟩
abbrev main_v8 : Ref sig .tc := ⟨.hbm, 40, rfl⟩
abbrev main_v9 : Ref sig .tc := ⟨.hbm, 41, rfl⟩
abbrev main_cst_6 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_8 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_9 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_10 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S768x784 : S_.BroadcastsInDim S768x784 (![] : Fin 0 → Fin S768x784.rank)
  bitsLt_bf16_f32 : FTy.bits .bf16 < FTy.bits .f32
  bcast_S_S768x768 : S_.BroadcastsInDim S768x768 (![] : Fin 0 → Fin S768x768.rank)
  bcast_S_S768 : S_.BroadcastsInDim S768 (![] : Fin 0 → Fin S768.rank)
  shapeCasts_S768_S1x768 : S768.ShapeCasts S1x768
  shapeCasts_S10_S1x10 : S10.ShapeCasts S1x10
  inb_S1024x784_S1024x784_0_0 : ∀ a, (![0, 0] : Fin 2 → Nat) a + S1024x784.size a ≤ S1024x784.size a
  h_S1024x784 : 0 < S1024x784.numel
  inb_S768x784_S768x784_0_0 : ∀ a, (![0, 0] : Fin 2 → Nat) a + S768x784.size a ≤ S768x784.size a
  h_S768x784 : 0 < S768x784.numel
  shapeCasts_S768x784_S768x784 : S768x784.ShapeCasts S768x784
  transposes_S768x784_p1_0_S784x768 : S768x784.Transposes [1, 0] S784x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  transposes_S768x768_p1_0_S768x768 : S768x768.Transposes [1, 0] S768x768
  inb_S10x768_S10x768_0_0 : ∀ a, (![0, 0] : Fin 2 → Nat) a + S10x768.size a ≤ S10x768.size a
  h_S10x768 : 0 < S10x768.numel
  shapeCasts_S10x768_S10x768 : S10x768.ShapeCasts S10x768
  transposes_S10x768_p1_0_S768x10 : S10x768.Transposes [1, 0] S768x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x784_S784x768_S1024x768_1_0_0_1_n_n_wf : DotDims.WF S1024x784 S784x768 S1024x768 [1] [0] [0] [1] [] []
  dot_S1024x768_S768x768_S1024x768_1_0_0_1_n_n_wf : DotDims.WF S1024x768 S768x768 S1024x768 [1] [0] [0] [1] [] []
  dot_S1024x768_S768x10_S1024x10_1_0_0_1_n_n_wf : DotDims.WF S1024x768 S768x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x784.size a ≤ S768x784.size a
  hwx0_1 : ∀ i : grid0.Coords, EltTy.bits .bf16 = 32 ∨ (Rect.block (s := S768x784) S768x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x768.size a ≤ S768x768.size a
  hwx0_9 : ∀ i : grid0.Coords, EltTy.bits .bf16 = 32 ∨ (Rect.block (s := S768x768) S768x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x768.size a ≤ S1x768.size a
  hwx0_12 : ∀ i : grid0.Coords, EltTy.bits .f32 = 32 ∨ (Rect.block (s := S1x768) S1x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x768.size a ≤ S10x768.size a
  hwx0_13 : ∀ i : grid0.Coords, EltTy.bits .bf16 = 32 ∨ (Rect.block (s := S10x768) S10x768.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x10.size a ≤ S16384x10.size a
  hwx0_15 : ∀ i : grid0.Coords, EltTy.bits .f32 = 32 ∨ (Rect.block (s := S16384x10) S1024x10.size (cc0_transform_15 i) (hinb0_15 i)).WholeWords (EltTy.packing .f32)

variable [Facts₀]

def dot_S1024x784_S784x768_S1024x768_1_0_0_1_n_n : DotDims S1024x784 S784x768 S1024x768 where
  lhsContracting := [1]
  rhsContracting := [0]
  lhsNonContracting := [0]
  rhsNonContracting := [1]
  lhsBatch := []
  rhsBatch := []
  wf := dot_S1024x784_S784x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S768x10_S1024x10_1_0_0_1_n_n : DotDims S1024x768 S768x10 S1024x10 where
  lhsContracting := [1]
  rhsContracting := [0]
  lhsNonContracting := [0]
  rhsNonContracting := [1]
  lhsBatch := []
  rhsBatch := []
  wf := dot_S1024x768_S768x10_S1024x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S768x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S10x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v34) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v41) S1024x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x784 : Shape := ⟨2, ![16384, 784]⟩
abbrev S768x784 : Shape := ⟨2, ![768, 784]⟩
abbrev S768 : Shape := ⟨1, ![768]⟩
abbrev S768x768 : Shape := ⟨2, ![768, 768]⟩
abbrev S10x768 : Shape := ⟨2, ![10, 768]⟩
abbrev S10 : Shape := ⟨1, ![10]⟩
abbrev S_ : Shape := ⟨0, ![]⟩
abbrev S784x768 : Shape := ⟨2, ![784, 768]⟩
abbrev S16384x768 : Shape := ⟨2, ![16384, 768]⟩
abbrev S1x768 : Shape := ⟨2, ![1, 768]⟩
abbrev S768x10 : Shape := ⟨2, ![768, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 177
  | .vmem => 0
  | .smem => 0
  | _ => 0

abbrev hbmTy0_0 (i : Nat) : BufTy := match i % 128 with
  | 0 => ⟨S16384x784, .f32⟩
  | 1 => ⟨S768x784, .f32⟩
  | 2 => ⟨S768, .f32⟩
  | 3 => ⟨S768x768, .f32⟩
  | 4 => ⟨S768, .f32⟩
  | 5 => ⟨S768x768, .f32⟩
  | 6 => ⟨S768, .f32⟩
  | 7 => ⟨S10x768, .f32⟩
  | 8 => ⟨S10, .f32⟩
  | 9 => ⟨S768, .f32⟩
  | 10 => ⟨S768, .f32⟩
  | 11 => ⟨S768, .f32⟩
  | 12 => ⟨S768, .f32⟩
  | 13 => ⟨S768, .f32⟩
  | 14 => ⟨S768, .f32⟩
  | 15 => ⟨S768, .f32⟩
  | 16 => ⟨S768, .f32⟩
  | 17 => ⟨S768, .f32⟩
  | 18 => ⟨S768, .f32⟩
  | 19 => ⟨S768, .f32⟩
  | 20 => ⟨S768, .f32⟩
  | 21 => ⟨S_, .f32⟩
  | 22 => ⟨S768x784, .f32⟩
  | 23 => ⟨S768x784, .i1⟩
  | 24 => ⟨S_, .f32⟩
  | 25 => ⟨S_, .f32⟩
  | 26 => ⟨S768x784, .f32⟩
  | 27 => ⟨S768x784, .f32⟩
  | 28 => ⟨S768x784, .f32⟩
  | 29 => ⟨S768x784, .f32⟩
  | 30 => ⟨S768x784, .f32⟩
  | 31 => ⟨S768x784, .f32⟩
  | 32 => ⟨S784x768, .f32⟩
  | 33 => ⟨S16384x768, .f32⟩
  | 34 => ⟨S1x768, .f32⟩
  | 35 => ⟨S16384x768, .f32⟩
  | 36 => ⟨S16384x768, .f32⟩
  | 37 => ⟨S1x768, .f32⟩
  | 38 => ⟨S16384x768, .f32⟩
  | 39 => ⟨S16384x768, .f32⟩
  | 40 => ⟨S_, .f32⟩
  | 41 => ⟨S768, .f32⟩
  | 42 => ⟨S768, .f32⟩
  | 43 => ⟨S768, .f32⟩
  | 44 => ⟨S768, .f32⟩
  | 45 => ⟨S1x768, .f32⟩
  | 46 => ⟨S16384x768, .f32⟩
  | 47 => ⟨S16384x768, .f32⟩
  | 48 => ⟨S1x768, .f32⟩
  | 49 => ⟨S16384x768, .f32⟩
  | 50 => ⟨S16384x768, .f32⟩
  | 51 => ⟨S_, .f32⟩
  | 52 => ⟨S_, .f32⟩
  | 53 => ⟨S_, .f32⟩
  | 54 => ⟨S16384x768, .f32⟩
  | 55 => ⟨S16384x768, .f32⟩
  | 56 => ⟨S_, .f32⟩
  | 57 => ⟨S16384x768, .f32⟩
  | 58 => ⟨S16384x768, .f32⟩
  | 59 => ⟨S_, .f32⟩
  | 60 => ⟨S16384x768, .f32⟩
  | 61 => ⟨S16384x768, .i1⟩
  | 62 => ⟨S_, .f32⟩
  | 63 => ⟨S_, .f32⟩
  | 64 => ⟨S16384x768, .f32⟩
  | 65 => ⟨S16384x768, .f32⟩
  | 66 => ⟨S16384x768, .f32⟩
  | 67 => ⟨S16384x768, .f32⟩
  | 68 => ⟨S16384x768, .f32⟩
  | 69 => ⟨S16384x768, .f32⟩
  | 70 => ⟨S_, .f32⟩
  | 71 => ⟨S768x768, .f32⟩
  | 72 => ⟨S768x768, .i1⟩
  | 73 => ⟨S_, .f32⟩
  | 74 => ⟨S_, .f32⟩
  | 75 => ⟨S768x768, .f32⟩
  | 76 => ⟨S768x768, .f32⟩
  | 77 => ⟨S768x768, .f32⟩
  | 78 => ⟨S768x768, .f32⟩
  | 79 => ⟨S768x768, .f32⟩
  | 80 => ⟨S768x768, .f32⟩
  | 81 => ⟨S768x768, .f32⟩
  | 82 => ⟨S16384x768, .f32⟩
  | 83 => ⟨S1x768, .f32⟩
  | 84 => ⟨S16384x768, .f32⟩
  | 85 => ⟨S16384x768, .f32⟩
  | 86 => ⟨S1x768, .f32⟩
  | 87 => ⟨S16384x768, .f32⟩
  | 88 => ⟨S16384x768, .f32⟩
  | 89 => ⟨S_, .f32⟩
  | 90 => ⟨S768, .f32⟩
  | 91 => ⟨S768, .f32⟩
  | 92 => ⟨S768, .f32⟩
  | 93 => ⟨S768, .f32⟩
  | 94 => ⟨S1x768, .f32⟩
  | 95 => ⟨S16384x768, .f32⟩
  | 96 => ⟨S16384x768, .f32⟩
  | 97 => ⟨S1x768, .f32⟩
  | 98 => ⟨S16384x768, .f32⟩
  | 99 => ⟨S16384x768, .f32⟩
  | 100 => ⟨S_, .f32⟩
  | 101 => ⟨S_, .f32⟩
  | 102 => ⟨S_, .f32⟩
  | 103 => ⟨S16384x768, .f32⟩
  | 104 => ⟨S16384x768, .f32⟩
  | 105 => ⟨S_, .f32⟩
  | 106 => ⟨S16384x768, .f32⟩
  | 107 => ⟨S16384x768, .f32⟩
  | 108 => ⟨S_, .f32⟩
  | 109 => ⟨S16384x768, .f32⟩
  | 110 => ⟨S16384x768, .i1⟩
  | 111 => ⟨S_, .f32⟩
  | 112 => ⟨S_, .f32⟩
  | 113 => ⟨S16384x768, .f32⟩
  | 114 => ⟨S16384x768, .f32⟩
  | 115 => ⟨S16384x768, .f32⟩
  | 116 => ⟨S16384x768, .f32⟩
  | 117 => ⟨S16384x768, .f32⟩
  | 118 => ⟨S16384x768, .f32⟩
  | 119 => ⟨S_, .f32⟩
  | 120 => ⟨S768x768, .f32⟩
  | 121 => ⟨S768x768, .i1⟩
  | 122 => ⟨S_, .f32⟩
  | 123 => ⟨S_, .f32⟩
  | 124 => ⟨S768x768, .f32⟩
  | 125 => ⟨S768x768, .f32⟩
  | 126 => ⟨S768x768, .f32⟩
  | 127 => ⟨S768x768, .f32⟩
  | _ => ⟨S16384x784, .f32⟩

abbrev hbmTy0_1 (i : Nat) : BufTy := match i % 128 with
  | 0 => ⟨S768x768, .f32⟩
  | 1 => ⟨S768x768, .f32⟩
  | 2 => ⟨S768x768, .f32⟩
  | 3 => ⟨S16384x768, .f32⟩
  | 4 => ⟨S1x768, .f32⟩
  | 5 => ⟨S16384x768, .f32⟩
  | 6 => ⟨S16384x768, .f32⟩
  | 7 => ⟨S1x768, .f32⟩
  | 8 => ⟨S16384x768, .f32⟩
  | 9 => ⟨S16384x768, .f32⟩
  | 10 => ⟨S_, .f32⟩
  | 11 => ⟨S768, .f32⟩
  | 12 => ⟨S768, .f32⟩
  | 13 => ⟨S768, .f32⟩
  | 14 => ⟨S768, .f32⟩
  | 15 => ⟨S1x768, .f32⟩
  | 16 => ⟨S16384x768, .f32⟩
  | 17 => ⟨S16384x768, .f32⟩
  | 18 => ⟨S1x768, .f32⟩
  | 19 => ⟨S16384x768, .f32⟩
  | 20 => ⟨S16384x768, .f32⟩
  | 21 => ⟨S_, .f32⟩
  | 22 => ⟨S_, .f32⟩
  | 23 => ⟨S_, .f32⟩
  | 24 => ⟨S16384x768, .f32⟩
  | 25 => ⟨S16384x768, .f32⟩
  | 26 => ⟨S_, .f32⟩
  | 27 => ⟨S16384x768, .f32⟩
  | 28 => ⟨S16384x768, .f32⟩
  | 29 => ⟨S768x10, .f32⟩
  | 30 => ⟨S16384x10, .f32⟩
  | 31 => ⟨S1x10, .f32⟩
  | 32 => ⟨S16384x10, .f32⟩
  | 33 => ⟨S16384x10, .f32⟩
  | 34 => ⟨S_, .f32⟩
  | 35 => ⟨S16384, .f32⟩
  | 36 => ⟨S_, .f32⟩
  | 37 => ⟨S16384, .f32⟩
  | 38 => ⟨S16384, .f32⟩
  | 39 => ⟨S16384x1, .f32⟩
  | 40 => ⟨S16384x10, .f32⟩
  | 41 => ⟨S16384x10, .f32⟩
  | 42 => ⟨S16384x10, .f32⟩
  | 43 => ⟨S_, .f32⟩
  | 44 => ⟨S16384, .f32⟩
  | 45 => ⟨S16384x1, .f32⟩
  | 46 => ⟨S16384x1, .f32⟩
  | 47 => ⟨S16384x10, .f32⟩
  | 48 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_8 : Ref sig .tc := ⟨.hbm, 70, rfl⟩
abbrev main_v31 : Ref sig .tc := ⟨.hbm, 71, rfl⟩
abbrev main_v32 : Ref sig .tc := ⟨.hbm, 72, rfl⟩
abbrev main_cst_9 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_11 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_12 : Ref sig .tc := ⟨.hbm, 100, rfl⟩
abbrev main_cst_13 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v55 : Ref sig .tc := ⟨.hbm, 107, rfl⟩
abbrev main_cst_14 : Ref sig .tc := ⟨.hbm, 108, rfl⟩
abbrev main_v56 : Ref sig .tc := ⟨.hbm, 109, rfl⟩
abbrev main_v57 : Ref sig .tc := ⟨.hbm, 110, rfl⟩
abbrev main_cst_15 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_17 : Ref sig .tc := ⟨.hbm, 119, rfl⟩
abbrev main_v62 : Ref sig .tc := ⟨.hbm, 120, rfl⟩
abbrev main_v63 : Ref sig .tc := ⟨.hbm, 121, rfl⟩
abbrev main_cst_18 : Ref sig .tc := ⟨.hbm, 122, rfl⟩
abbrev main_cst_19 : Ref sig .tc := ⟨.hbm, 123, rfl⟩
abbrev main_call6_v0 : Ref sig .tc := ⟨.hbm, 124, rfl⟩
abbrev main_call6_v1 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_cst_20 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_21 : Ref sig .tc := ⟨.hbm, 149, rfl⟩
abbrev main_cst_22 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_call8_cst : Ref sig .tc := ⟨.hbm, 162, rfl⟩
abbrev main_call8_v0 : Ref sig .tc := ⟨.hbm, 163, rfl⟩
abbrev main_call8_cst_0 : Ref sig .tc := ⟨.hbm, 164, rfl⟩
abbrev main_call8_v1 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_call8_v5 : Ref sig .tc := ⟨.hbm, 169, rfl⟩
abbrev main_call8_v6 : Ref sig .tc := ⟨.hbm, 170, rfl⟩
abbrev main_call8_cst_1 : Ref sig .tc := ⟨.hbm, 171, rfl⟩
abbrev main_call8_v7 : Ref sig .tc := ⟨.hbm, 172, rfl⟩
abbrev main_call8_v8 : Ref sig .tc := ⟨.hbm, 173, rfl⟩
abbrev main_call8_v9 : Ref sig .tc := ⟨.hbm, 174, rfl⟩
abbrev main_call8_v10 : Ref sig .tc := ⟨.hbm, 175, rfl⟩
abbrev main_v92 : Ref sig .tc := ⟨.hbm, 176, rfl⟩

abbrev nD : Nat := 1
abbrev τ : Topo := Topo.v7x

variable {F : FTy → Type} [FloatOps F]

class Facts₀ : Prop where
  bcast_S_S768x784 : S_.BroadcastsInDim S768x784 (![] : Fin 0 → Fin S768x784.rank)
  transposes_S768x784_S784x768_1_0 : S768x784.Transposes [1, 0] S784x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  bcast_S_S768 : S_.BroadcastsInDim S768 (![] : Fin 0 → Fin S768.rank)
  bcast_S_S16384x768 : S_.BroadcastsInDim S16384x768 (![] : Fin 0 → Fin S16384x768.rank)
  bcast_S_S768x768 : S_.BroadcastsInDim S768x768 (![] : Fin 0 → Fin S768x768.rank)
  transposes_S768x768_S768x768_1_0 : S768x768.Transposes [1, 0] S768x768
  transposes_S10x768_S768x10_1_0 : S10x768.Transposes [1, 0] S768x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x768_S16384x768_1_0_0_1_n_n_wf : DotDims.WF S16384x784 S784x768 S16384x768 [1] [0] [0] [1] [] []
  dot_S16384x768_S768x768_S16384x768_1_0_0_1_n_n_wf : DotDims.WF S16384x768 S768x768 S16384x768 [1] [0] [0] [1] [] []
  dot_S16384x768_S768x10_S16384x10_1_0_0_1_n_n_wf : DotDims.WF S16384x768 S768x10 S16384x10 [1] [0] [0] [1] [] []

variable [Facts₀]

def dot_S16384x784_S784x768_S16384x768_1_0_0_1_n_n : DotDims S16384x784 S784x768 S16384x768 where
  lhsContracting := [1]
  rhsContracting := [0]
  lhsNonContracting := [0]
  rhsNonContracting := [1]
  lhsBatch := []
  rhsBatch := []
  wf := dot_S16384x784_S784x768_S16384x768_1_0_0_1_n_n_wf
def dot_S16384x768_S768x768_S16384x768_1_0_0_1_n_n : DotDims S16384x768 S768x768 S16384x768 where
  lhsContracting := [1]
  rhsContracting := [0]
  lhsNonContracting := [0]
  rhsNonContracting := [1]
  lhsBatch := []
  rhsBatch := []
  wf := dot_S16384x768_S768x768_S16384x768_1_0_0_1_n_n_wf
def dot_S16384x768_S768x10_S16384x10_1_0_0_1_n_n : DotDims S16384x768 S768x10 S16384x10 where
  lhsContracting := [1]
  rhsContracting := [0]
  lhsNonContracting := [0]
  rhsNonContracting := [1]
  lhsBatch := []
  rhsBatch := []
  wf := dot_S16384x768_S768x10_S16384x10_1_0_0_1_n_n_wf

class Facts : Prop extends Facts₀ where

variable [Facts]
-- ==== Proof.Spec.lean ====
/-
  The network both programs compute, one input row at a time, over the extended reals.

  A row `x : Fin 784 → EReal` goes through three hidden layers and a read-out. A hidden layer takes the previous
  layer's row (for the first layer the input itself, afterwards its signs), multiplies it against the SIGNS of a weight
  matrix, adds a bias, normalises each feature by stored statistics — `(h - μ) · (γ · (v + ε)^(-1/2)) + β` — and clamps
  the result to `[-1, 1]`. The read-out is an ordinary affine map onto ten logits followed by the logarithm of their
  softmax, computed in the shifted form `(ℓ - M) - log Σ exp (ℓ - M)` with `M` the largest logit.

  One program normalises exactly as written above (`hid`, `row`). The other precomputes, per feature, the scale
  `a = γ · (v + ε)^(-1/2)` and the shift `c = β - μ · a` and applies `h · a + c`; its first layer moreover adds the
  product of `x - x` against the same weights (`hidK1`, `hidK`, `rowK`). On the extended reals the two agree as soon
  as every quantity in sight is a real number: `x - x = 0` needs `x` finite, and `(h - μ) · a = h · a - μ · a` needs all
  three finite, the scale being finite because `v ≥ 0` keeps `v + ε` positive. That is `rowK_eq_row`.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-! ## The constants, as the words both programs carry -/

/-- `1`, as its single-precision word. -/
def one : EReal := Ideal.ofBits .f32 0x3F800000#32
/-- `-1`, as its single-precision word. -/
def negOne : EReal := Ideal.ofBits .f32 0xBF800000#32
/-- `0`, as its single-precision word. -/
def zero : EReal := Ideal.ofBits .f32 0x00000000#32
/-- The variance offset `ε` (the single-precision number nearest `1e-5`), as its word. -/
def eps : EReal := Ideal.ofBits .f32 0x3727C5AC#32

/-! ## The pieces -/

/-- The sign used to binarise: `1` on `[0, ∞]`, `-1` below. -/
def sgn (t : EReal) : EReal := if zero ≤ t then one else negOne

/-- Clamping to `[-1, 1]`. -/
def clip (t : EReal) : EReal := min one (max negOne t)

/-- A feature's normalisation scale `γ · (v + ε)^(-1/2)`. -/
def scale (g v : EReal) : EReal := g * Ideal.rsqrt (v + eps)

/-- An affine map: feature `j` is the row against weight row `j`, plus the bias. -/
def lin {k n : ℕ} (W : Fin n → Fin k → EReal) (b : Fin n → EReal) (h : Fin k → EReal) (j : Fin n) : EReal :=
  (∑ q : Fin k, h q * W j q) + b j

/-- Normalisation by stored statistics. -/
def bn (g be mu v h : EReal) : EReal := (h - mu) * scale g v + be

/-- The largest of ten logits (the fold of `max` from `-∞`). -/
def top (l : Fin 10 → EReal) : EReal := (Finset.univ : Finset (Fin 10)).fold max (Ideal.ofBits .f32 0xFF800000#32) l

/-- The logarithm of the softmax, in shifted form. -/
def lsm (l : Fin 10 → EReal) (c : Fin 10) : EReal :=
  (l c - top l) - Ideal.log (∑ c' : Fin 10, Ideal.exp (l c' - top l))

/-! ## The network as written: normalise, then clamp -/

/-- A hidden layer: signs of the weights, bias, normalisation, clamp. -/
def hid {k : ℕ} (W : Fin 768 → Fin k → EReal) (b g be mu v : Fin 768 → EReal) (h : Fin k → EReal) (j : Fin 768) : EReal :=
  clip (bn (g j) (be j) (mu j) (v j) (lin (fun j q => sgn (W j q)) b h j))

/-- One input row to its ten outputs. -/
def row (W1 : Fin 768 → Fin 784 → EReal) (b1 : Fin 768 → EReal) (W2 : Fin 768 → Fin 768 → EReal) (b2 : Fin 768 → EReal)
    (W3 : Fin 768 → Fin 768 → EReal) (b3 : Fin 768 → EReal) (W4 : Fin 10 → Fin 768 → EReal) (b4 : Fin 10 → EReal)
    (g1 be1 m1 v1 g2 be2 m2 v2 g3 be3 m3 v3 : Fin 768 → EReal) (x : Fin 784 → EReal) : Fin 10 → EReal :=
  lsm (lin W4 b4 (hid W3 b3 g3 be3 m3 v3 (fun j => sgn (hid W2 b2 g2 be2 m2 v2 (fun j => sgn (hid W1 b1 g1 be1 m1 v1 x j)) j))))

/-! ## The network with the normalisation folded into a scale and a shift -/

/-- A hidden layer over weights already binarised and statistics already folded: `h · a + c`, clamped. -/
def hidK {k : ℕ} (Wb : Fin 768 → Fin k → EReal) (b a c : Fin 768 → EReal) (h : Fin k → EReal) (j : Fin 768) : EReal :=
  clip (lin Wb b h j * a j + c j)

/-- The first such layer, which also adds the product of `x - x` against the same weights. -/
def hidK1 (Wb : Fin 768 → Fin 784 → EReal) (b a c : Fin 768 → EReal) (x : Fin 784 → EReal) (j : Fin 768) : EReal :=
  clip ((((∑ q : Fin 784, x q * Wb j q) + ∑ q : Fin 784, (x q - x q) * Wb j q) + b j) * a j + c j)

/-- One input row to its ten outputs, in the folded arrangement. -/
def rowK (Wb1 : Fin 768 → Fin 784 → EReal) (b1 a1 c1 : Fin 768 → EReal) (Wb2 : Fin 768 → Fin 768 → EReal) (b2 a2 c2 : Fin 768 → EReal)
    (Wb3 : Fin 768 → Fin 768 → EReal) (b3 a3 c3 : Fin 768 → EReal) (W4 : Fin 10 → Fin 768 → EReal) (b4 : Fin 10 → EReal)
    (x : Fin 784 → EReal) : Fin 10 → EReal :=
  lsm (lin W4 b4 (hidK Wb3 b3 a3 c3 (fun j => sgn (hidK Wb2 b2 a2 c2 (fun j => sgn (hidK1 Wb1 b1 a1 c1 x j)) j))))

/-! ## Real numbers among the extended reals -/

/-- An extended real that is a real number. -/
def IsReal (t : EReal) : Prop := ∃ r : ℝ, t = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.zero : IsReal 0 := ⟨0, rfl⟩

theorem IsReal.sum {n : ℕ} {f : Fin n → EReal} (h : ∀ q, IsReal (f q)) : IsReal (∑ q : Fin n, f q) :=
  Finset.sum_induction f IsReal (fun _ _ => IsReal.add) IsReal.zero (fun q _ => h q)

theorem one_eq' : one = ((1 : ℝ) : EReal) := by
  unfold one; simp [Ideal.ofBits, Ideal.ieee]
  rw [← EReal.coe_mul]; norm_num

theorem negOne_eq' : negOne = ((-1 : ℝ) : EReal) := by
  unfold negOne; simp [Ideal.ofBits, Ideal.ieee]
  rw [← EReal.coe_mul]; norm_num

theorem zero_eq : zero = 0 := Ideal.ofBits_zero_f32

theorem isReal_one : IsReal one := ⟨1, one_eq'⟩
theorem isReal_negOne : IsReal negOne := ⟨-1, negOne_eq'⟩

/-- The signs are real numbers. -/
theorem isReal_sgn (t : EReal) : IsReal (sgn t) := by
  unfold sgn; split
  · exact isReal_one
  · exact isReal_negOne

/-- A clamped value is a real number, whatever was clamped: it lies between `-1` and `1`. -/
theorem isReal_clip (t : EReal) : IsReal (clip t) := by
  unfold clip
  rw [one_eq', negOne_eq']
  have h1 : min ((1 : ℝ) : EReal) (max ((-1 : ℝ) : EReal) t) ≤ ((1 : ℝ) : EReal) := min_le_left _ _
  have h2 : ((-1 : ℝ) : EReal) ≤ min ((1 : ℝ) : EReal) (max ((-1 : ℝ) : EReal) t) :=
    le_min (EReal.coe_le_coe_iff.mpr (by norm_num)) (le_max_left _ _)
  exact ⟨_, (EReal.coe_toReal (ne_of_lt (lt_of_le_of_lt h1 (EReal.coe_lt_top 1)))
    (ne_of_gt (lt_of_lt_of_le (EReal.bot_lt_coe (-1)) h2))).symm⟩

/-- The variance offset is a positive real number. -/
theorem eps_pos : ∃ e : ℝ, 0 < e ∧ eps = (e : EReal) := by
  refine ⟨10995116 / 2 ^ 40, by norm_num, ?_⟩
  unfold eps; simp [Ideal.ofBits, Ideal.ieee]
  rw [← EReal.coe_mul]; norm_num

/-! ## The two arrangements agree on real numbers -/

/-- `x - x = 0` for a real number. -/
theorem sub_self_of_isReal {x : EReal} (h : IsReal x) : x - x = 0 := by
  obtain ⟨r, rfl⟩ := h; rw [← EReal.coe_sub, sub_self, EReal.coe_zero]

/-- The reciprocal square root of a positive real number is a real number. -/
theorem isReal_rsqrt_pos {s : ℝ} (hs : 0 < s) : IsReal (Ideal.rsqrt (s : EReal)) := by
  refine ⟨(Real.sqrt s)⁻¹, ?_⟩
  show (if s < 0 then (⊥ : EReal) else if s = 0 then ⊤ else (((Real.sqrt s)⁻¹ : ℝ) : EReal)) = _
  rw [if_neg (not_lt.mpr hs.le), if_neg hs.ne']

/-- A feature's scale is a real number when `γ` and `v` are and `v ≥ 0`: then `v + ε > 0`. -/
theorem isReal_scale {g v : EReal} (hg : IsReal g) (hv : IsReal v) (h0 : 0 ≤ v) : IsReal (scale g v) := by
  obtain ⟨r, rfl⟩ := hv
  obtain ⟨e, he, hee⟩ := eps_pos
  have hr : 0 ≤ r := by exact_mod_cast h0
  refine hg.mul ?_
  rw [hee, ← EReal.coe_add]
  exact isReal_rsqrt_pos (by linarith)

/-- `h · a + (β - μ · a) = (h - μ) · a + β` on real numbers. -/
theorem fold_eq {h mu a be : EReal} (hh : IsReal h) (hm : IsReal mu) (ha : IsReal a) (hb : IsReal be) :
    h * a + (be - mu * a) = (h - mu) * a + be := by
  obtain ⟨h, rfl⟩ := hh; obtain ⟨mu, rfl⟩ := hm; obtain ⟨a, rfl⟩ := ha; obtain ⟨be, rfl⟩ := hb
  rw [← EReal.coe_mul, ← EReal.coe_mul, ← EReal.coe_sub, ← EReal.coe_sub, ← EReal.coe_add, ← EReal.coe_mul, ← EReal.coe_add]
  exact congrArg _ (by ring)

theorem isReal_lin {k n : ℕ} {W : Fin n → Fin k → EReal} {b : Fin n → EReal} {h : Fin k → EReal}
    (hW : ∀ j q, IsReal (W j q)) (hb : ∀ j, IsReal (b j)) (hh : ∀ q, IsReal (h q)) (j : Fin n) : IsReal (lin W b h j) :=
  (IsReal.sum fun q => (hh q).mul (hW j q)).add (hb j)

/-- A folded hidden layer is the written one, on a real row and real parameters with `v ≥ 0`. -/
theorem hidK_eq_hid {k : ℕ} (W : Fin 768 → Fin k → EReal) (b g be mu v : Fin 768 → EReal) (h : Fin k → EReal)
    (hb : ∀ j, IsReal (b j)) (hg : ∀ j, IsReal (g j)) (hbe : ∀ j, IsReal (be j)) (hmu : ∀ j, IsReal (mu j))
    (hv : ∀ j, IsReal (v j)) (hv0 : ∀ j, 0 ≤ v j) (hh : ∀ q, IsReal (h q)) (j : Fin 768) :
    hidK (fun j q => sgn (W j q)) b (fun j => scale (g j) (v j)) (fun j => be j - mu j * scale (g j) (v j)) h j
      = hid W b g be mu v h j :=
  congrArg clip (fold_eq (isReal_lin (fun _ _ => isReal_sgn _) hb hh j) (hmu j) (isReal_scale (hg j) (hv j) (hv0 j)) (hbe j))

/-- The same for the first layer: the product of `x - x` vanishes on a real row. -/
theorem hidK1_eq_hid (W : Fin 768 → Fin 784 → EReal) (b g be mu v : Fin 768 → EReal) (x : Fin 784 → EReal)
    (hb : ∀ j, IsReal (b j)) (hg : ∀ j, IsReal (g j)) (hbe : ∀ j, IsReal (be j)) (hmu : ∀ j, IsReal (mu j))
    (hv : ∀ j, IsReal (v j)) (hv0 : ∀ j, 0 ≤ v j) (hx : ∀ q, IsReal (x q)) (j : Fin 768) :
    hidK1 (fun j q => sgn (W j q)) b (fun j => scale (g j) (v j)) (fun j => be j - mu j * scale (g j) (v j)) x j
      = hid W b g be mu v x j := by
  have h0 : (∑ q : Fin 784, (x q - x q) * sgn (W j q)) = 0 :=
    Finset.sum_eq_zero fun q _ => by rw [sub_self_of_isReal (hx q), zero_mul]
  refine Eq.trans ?_ (hidK_eq_hid W b g be mu v x hb hg hbe hmu hv hv0 hx j)
  show clip ((((∑ q : Fin 784, x q * sgn (W j q)) + ∑ q : Fin 784, (x q - x q) * sgn (W j q)) + b j) * _ + _) = _
  rw [h0, add_zero]
  rfl

/-- The folded network is the written one, on a real input row and real parameters with non-negative variances. -/
theorem rowK_eq_row (W1 : Fin 768 → Fin 784 → EReal) (b1 : Fin 768 → EReal) (W2 : Fin 768 → Fin 768 → EReal) (b2 : Fin 768 → EReal)
    (W3 : Fin 768 → Fin 768 → EReal) (b3 : Fin 768 → EReal) (W4 : Fin 10 → Fin 768 → EReal) (b4 : Fin 10 → EReal)
    (g1 be1 m1 v1 g2 be2 m2 v2 g3 be3 m3 v3 : Fin 768 → EReal) (x : Fin 784 → EReal)
    (hx : ∀ q, IsReal (x q)) (hb1 : ∀ j, IsReal (b1 j)) (hb2 : ∀ j, IsReal (b2 j)) (hb3 : ∀ j, IsReal (b3 j))
    (hg1 : ∀ j, IsReal (g1 j)) (hbe1 : ∀ j, IsReal (be1 j)) (hm1 : ∀ j, IsReal (m1 j)) (hv1 : ∀ j, IsReal (v1 j)) (hv1' : ∀ j, 0 ≤ v1 j)
    (hg2 : ∀ j, IsReal (g2 j)) (hbe2 : ∀ j, IsReal (be2 j)) (hm2 : ∀ j, IsReal (m2 j)) (hv2 : ∀ j, IsReal (v2 j)) (hv2' : ∀ j, 0 ≤ v2 j)
    (hg3 : ∀ j, IsReal (g3 j)) (hbe3 : ∀ j, IsReal (be3 j)) (hm3 : ∀ j, IsReal (m3 j)) (hv3 : ∀ j, IsReal (v3 j)) (hv3' : ∀ j, 0 ≤ v3 j) :
    rowK (fun j q => sgn (W1 j q)) b1 (fun j => scale (g1 j) (v1 j)) (fun j => be1 j - m1 j * scale (g1 j) (v1 j))
         (fun j q => sgn (W2 j q)) b2 (fun j => scale (g2 j) (v2 j)) (fun j => be2 j - m2 j * scale (g2 j) (v2 j))
         (fun j q => sgn (W3 j q)) b3 (fun j => scale (g3 j) (v3 j)) (fun j => be3 j - m3 j * scale (g3 j) (v3 j)) W4 b4 x
      = row W1 b1 W2 b2 W3 b3 W4 b4 g1 be1 m1 v1 g2 be2 m2 v2 g3 be3 m3 v3 x := by
  have e1 : hidK1 (fun j q => sgn (W1 j q)) b1 (fun j => scale (g1 j) (v1 j)) (fun j => be1 j - m1 j * scale (g1 j) (v1 j)) x
      = hid W1 b1 g1 be1 m1 v1 x := funext fun j => hidK1_eq_hid W1 b1 g1 be1 m1 v1 x hb1 hg1 hbe1 hm1 hv1 hv1' hx j
  have e2 : hidK (fun j q => sgn (W2 j q)) b2 (fun j => scale (g2 j) (v2 j)) (fun j => be2 j - m2 j * scale (g2 j) (v2 j))
        (fun j => sgn (hid W1 b1 g1 be1 m1 v1 x j))
      = hid W2 b2 g2 be2 m2 v2 (fun j => sgn (hid W1 b1 g1 be1 m1 v1 x j)) :=
    funext fun j => hidK_eq_hid W2 b2 g2 be2 m2 v2 _ hb2 hg2 hbe2 hm2 hv2 hv2' (fun _ => isReal_sgn _) j
  have e3 : hidK (fun j q => sgn (W3 j q)) b3 (fun j => scale (g3 j) (v3 j)) (fun j => be3 j - m3 j * scale (g3 j) (v3 j))
        (fun j => sgn (hid W2 b2 g2 be2 m2 v2 (fun j => sgn (hid W1 b1 g1 be1 m1 v1 x j)) j))
      = hid W3 b3 g3 be3 m3 v3 (fun j => sgn (hid W2 b2 g2 be2 m2 v2 (fun j => sgn (hid W1 b1 g1 be1 m1 v1 x j)) j)) :=
    funext fun j => hidK_eq_hid W3 b3 g3 be3 m3 v3 _ hb3 hg3 hbe3 hm3 hv3 hv3' (fun _ => isReal_sgn _) j
  unfold rowK row
  rw [e1, e2, e3]

/-! ## The printed forms of the sign and of `-∞` -/

/-- A select on "`t ≥ 0`" between the words of `1` and `-1` is the sign. -/
theorem select_ge_eq_sgn (t : EReal) :
    Scalar.select (Ideal.cmp .oge t (Ideal.ofBits .f32 0x00000000#32)) (Ideal.ofBits .f32 0x3F800000#32)
      (Ideal.ofBits .f32 0xBF800000#32) = sgn t := by
  unfold sgn zero one negOne Scalar.select Ideal.cmp
  generalize Ideal.ofBits .f32 0x00000000#32 = z
  by_cases h : z ≤ t <;> simp [h]

/-- The word of `-∞` is the bottom of the extended reals. -/
theorem negInf_eq : Ideal.ofBits .f32 0xFF800000#32 = (⊥ : EReal) := by
  simp [Ideal.ofBits, Ideal.ieee]

/-- Taking the maximum with `-∞` changes nothing. -/
theorem max_negInf (t : EReal) : max (Ideal.ofBits .f32 0xFF800000#32) t = t := by
  rw [negInf_eq]; exact max_eq_right bot_le

/-! ## The whole arrays -/

/-- The result array as ONE function of the twenty-one argument arrays (in the programs' argument order: the input,
    the four layers' weights and biases, then `γ, β, μ, v` of each normalisation): entry `(r, c)` is output `c` of the
    network on input row `r`. -/
def G (a0 : (⟨2, ![16384, 784]⟩ : Shape).Idx → EReal) (a1 : (⟨2, ![768, 784]⟩ : Shape).Idx → EReal)
    (a2 : (⟨1, ![768]⟩ : Shape).Idx → EReal) (a3 : (⟨2, ![768, 768]⟩ : Shape).Idx → EReal) (a4 : (⟨1, ![768]⟩ : Shape).Idx → EReal)
    (a5 : (⟨2, ![768, 768]⟩ : Shape).Idx → EReal) (a6 : (⟨1, ![768]⟩ : Shape).Idx → EReal) (a7 : (⟨2, ![10, 768]⟩ : Shape).Idx → EReal)
    (a8 : (⟨1, ![10]⟩ : Shape).Idx → EReal)
    (a9 a10 a11 a12 a13 a14 a15 a16 a17 a18 a19 a20 : (⟨1, ![768]⟩ : Shape).Idx → EReal) :
    (⟨2, ![16384, 10]⟩ : Shape).Idx → EReal := fun i =>
  row (fun j q => a1 (ix2 j q)) (fun j => a2 (ix1 j)) (fun j q => a3 (ix2 j q)) (fun j => a4 (ix1 j))
      (fun j q => a5 (ix2 j q)) (fun j => a6 (ix1 j)) (fun c q => a7 (ix2 c q)) (fun c => a8 (ix1 c))
      (fun j => a9 (ix1 j)) (fun j => a10 (ix1 j)) (fun j => a11 (ix1 j)) (fun j => a12 (ix1 j))
      (fun j => a13 (ix1 j)) (fun j => a14 (ix1 j)) (fun j => a15 (ix1 j)) (fun j => a16 (ix1 j))
      (fun j => a17 (ix1 j)) (fun j => a18 (ix1 j)) (fun j => a19 (ix1 j)) (fun j => a20 (ix1 j))
      (fun q => a0 (ix2 (i 0) q)) (i 1)

end Cert.Mlp

end
-- ==== Proof.InputDomain.lean ====
/-
  The precondition read back. The predicate `Cert.Pre_finite_inputs.fn` is a conjunction of twenty-four
  all-entries tests: for each of the twenty-one float inputs, "|x| < +∞ at every entry", and for the three
  variance inputs (arguments 12, 16 and 20), "x ≥ 0 at every entry". At the ideal values an entry is an
  extended real, so the first kind of test says the entry is a real number (neither infinity), and the second
  says it is nonnegative. `holds_of_pre` collects the twenty-four facts from the statement that the
  predicate's one output word is 1.
-/
import proofs.«141077_j45140106281104_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.InputDomain

open Idealize.ShloMosaic
open Cert.Pre_finite_inputs

/-- The rank-0 shape has one index. -/
instance : Subsingleton S_.Idx := ⟨fun a b => funext fun d => d.elim0⟩

/-- The f32 word of +∞ is the top extended real. -/
theorem top_word : Ideal.ofBits .f32 0x7F800000#32 = (⊤ : EReal) := by simp [Ideal.ofBits, Ideal.ieee]

theorem ofBool_eq_one (b : Bool) : BitVec.ofBool b = 1#1 ↔ b = true := by cases b <;> decide

/-- An extended real whose absolute value `max x (-x)` is below +∞ is a real number:
    both infinities have absolute value +∞. -/
theorem real_of_abs_lt_top (x : EReal)
    (h : Ideal.cmp .olt (max x (-x)) (Ideal.ofBits .f32 0x7F800000#32) = 1#1) : ∃ r : ℝ, x = (r : EReal) := by
  rw [top_word] at h
  simp only [Ideal.cmp, ofBool_eq_one, decide_eq_true_eq] at h
  induction x with
  | bot => simp at h
  | coe r => exact ⟨r, rfl⟩
  | top => simp at h

/-- The comparison `x ≥ 0` against the f32 zero word, read back. -/
theorem nonneg_of_ge_zero (x : EReal)
    (h : Ideal.cmp .oge x (Ideal.ofBits .f32 0x00000000#32) = 1#1) : (0 : EReal) ≤ x := by
  rw [Ideal.ofBits_zero_f32] at h
  simpa only [Ideal.cmp, ofBool_eq_one, decide_eq_true_eq] using h

/-- One finiteness block: the conjunction over all entries of `|x| < +∞` being 1 makes every entry of `x` a real number. -/
theorem all_real_of_reduce {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) :
    ∀ i, ∃ r : ℝ, x i = (r : EReal) := fun i =>
  real_of_abs_lt_top (x i) (Host.reduce_andi_all _ _ hr hu _ e i)

/-- One sign block: the conjunction over all entries of `x ≥ 0` being 1 makes every entry of `x` nonnegative. -/
theorem all_nonneg_of_reduce {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .oge x (broadcastInDim s ![] hb (constant S_ .f32 0x00000000#32)))
          (constantI S_ 1 1#1) hr hu ValueIdx.ix0 = 1#1) :
    ∀ i, (0 : EReal) ≤ x i := fun i =>
  nonneg_of_ge_zero (x i) (Host.reduce_andi_all _ _ hr hu _ e i)

/-- A conjunction of two rank-0 `i1` words that is 1 has both words 1. -/
theorem and_ix0 (x y : IVec S_ 1) (h : andi x y ValueIdx.ix0 = 1#1) :
    x ValueIdx.ix0 = 1#1 ∧ y ValueIdx.ix0 = 1#1 := IntOp.andi_eq_one.1 h

/-- What the precondition says of the twenty-one inputs: every entry a real number, and the three variance
    inputs nonnegative. -/
structure Holds (a0 : FVec Ideal S16384x784 .f32) (a1 : FVec Ideal S768x784 .f32) (a2 : FVec Ideal S768 .f32) (a3 : FVec Ideal S768x768 .f32) (a4 : FVec Ideal S768 .f32) (a5 : FVec Ideal S768x768 .f32) (a6 : FVec Ideal S768 .f32) (a7 : FVec Ideal S10x768 .f32) (a8 : FVec Ideal S10 .f32) (a9 : FVec Ideal S768 .f32) (a10 : FVec Ideal S768 .f32) (a11 : FVec Ideal S768 .f32) (a12 : FVec Ideal S768 .f32) (a13 : FVec Ideal S768 .f32) (a14 : FVec Ideal S768 .f32) (a15 : FVec Ideal S768 .f32) (a16 : FVec Ideal S768 .f32) (a17 : FVec Ideal S768 .f32) (a18 : FVec Ideal S768 .f32) (a19 : FVec Ideal S768 .f32) (a20 : FVec Ideal S768 .f32) : Prop where
  fin0 : ∀ i, ∃ r : ℝ, a0 i = (r : EReal)
  fin1 : ∀ i, ∃ r : ℝ, a1 i = (r : EReal)
  fin2 : ∀ i, ∃ r : ℝ, a2 i = (r : EReal)
  fin3 : ∀ i, ∃ r : ℝ, a3 i = (r : EReal)
  fin4 : ∀ i, ∃ r : ℝ, a4 i = (r : EReal)
  fin5 : ∀ i, ∃ r : ℝ, a5 i = (r : EReal)
  fin6 : ∀ i, ∃ r : ℝ, a6 i = (r : EReal)
  fin7 : ∀ i, ∃ r : ℝ, a7 i = (r : EReal)
  fin8 : ∀ i, ∃ r : ℝ, a8 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin13 : ∀ i, ∃ r : ℝ, a13 i = (r : EReal)
  fin14 : ∀ i, ∃ r : ℝ, a14 i = (r : EReal)
  fin15 : ∀ i, ∃ r : ℝ, a15 i = (r : EReal)
  fin16 : ∀ i, ∃ r : ℝ, a16 i = (r : EReal)
  fin17 : ∀ i, ∃ r : ℝ, a17 i = (r : EReal)
  fin18 : ∀ i, ∃ r : ℝ, a18 i = (r : EReal)
  fin19 : ∀ i, ∃ r : ℝ, a19 i = (r : EReal)
  fin20 : ∀ i, ∃ r : ℝ, a20 i = (r : EReal)
  nn12 : ∀ i, (0 : EReal) ≤ a12 i
  nn16 : ∀ i, (0 : EReal) ≤ a16 i
  nn20 : ∀ i, (0 : EReal) ≤ a20 i

/-- The predicate's output word being 1 gives all twenty-four facts: the output is a left-nested conjunction
    of the twenty-four all-entries words, split from the right. -/
theorem holds_of_pre [Facts] (a0 : FVec Ideal S16384x784 .f32) (a1 : FVec Ideal S768x784 .f32) (a2 : FVec Ideal S768 .f32) (a3 : FVec Ideal S768x768 .f32) (a4 : FVec Ideal S768 .f32) (a5 : FVec Ideal S768x768 .f32) (a6 : FVec Ideal S768 .f32) (a7 : FVec Ideal S10x768 .f32) (a8 : FVec Ideal S10 .f32) (a9 : FVec Ideal S768 .f32) (a10 : FVec Ideal S768 .f32) (a11 : FVec Ideal S768 .f32) (a12 : FVec Ideal S768 .f32) (a13 : FVec Ideal S768 .f32) (a14 : FVec Ideal S768 .f32) (a15 : FVec Ideal S768 .f32) (a16 : FVec Ideal S768 .f32) (a17 : FVec Ideal S768 .f32) (a18 : FVec Ideal S768 .f32) (a19 : FVec Ideal S768 .f32) (a20 : FVec Ideal S768 .f32)
    (h : Cert.Pre_finite_inputs.fn (F := Ideal) a0 a1 a2 a3 a4 a5 a6 a7 a8 a9 a10 a11 a12 a13 a14 a15 a16 a17 a18 a19 a20 = fun _ => 1#1) :
    Holds a0 a1 a2 a3 a4 a5 a6 a7 a8 a9 a10 a11 a12 a13 a14 a15 a16 a17 a18 a19 a20 := by
  have e := congrFun h ValueIdx.ix0
  dsimp only [fn, fn_part1, fn_part2, fn_part3, fn_part4, fn_part5, fn_part6] at e
  obtain ⟨e, n20⟩ := and_ix0 _ _ e
  obtain ⟨e, n16⟩ := and_ix0 _ _ e
  obtain ⟨e, n12⟩ := and_ix0 _ _ e
  obtain ⟨e, f20⟩ := and_ix0 _ _ e
  obtain ⟨e, f19⟩ := and_ix0 _ _ e
  obtain ⟨e, f18⟩ := and_ix0 _ _ e
  obtain ⟨e, f17⟩ := and_ix0 _ _ e
  obtain ⟨e, f16⟩ := and_ix0 _ _ e
  obtain ⟨e, f15⟩ := and_ix0 _ _ e
  obtain ⟨e, f14⟩ := and_ix0 _ _ e
  obtain ⟨e, f13⟩ := and_ix0 _ _ e
  obtain ⟨e, f12⟩ := and_ix0 _ _ e
  obtain ⟨e, f11⟩ := and_ix0 _ _ e
  obtain ⟨e, f10⟩ := and_ix0 _ _ e
  obtain ⟨e, f9⟩ := and_ix0 _ _ e
  obtain ⟨e, f8⟩ := and_ix0 _ _ e
  obtain ⟨e, f7⟩ := and_ix0 _ _ e
  obtain ⟨e, f6⟩ := and_ix0 _ _ e
  obtain ⟨e, f5⟩ := and_ix0 _ _ e
  obtain ⟨e, f4⟩ := and_ix0 _ _ e
  obtain ⟨e, f3⟩ := and_ix0 _ _ e
  obtain ⟨e, f2⟩ := and_ix0 _ _ e
  obtain ⟨f0, f1⟩ := and_ix0 _ _ e
  exact ⟨all_real_of_reduce _ _ _ _ f0,
    all_real_of_reduce _ _ _ _ f1,
    all_real_of_reduce _ _ _ _ f2,
    all_real_of_reduce _ _ _ _ f3,
    all_real_of_reduce _ _ _ _ f4,
    all_real_of_reduce _ _ _ _ f5,
    all_real_of_reduce _ _ _ _ f6,
    all_real_of_reduce _ _ _ _ f7,
    all_real_of_reduce _ _ _ _ f8,
    all_real_of_reduce _ _ _ _ f9,
    all_real_of_reduce _ _ _ _ f10,
    all_real_of_reduce _ _ _ _ f11,
    all_real_of_reduce _ _ _ _ f12,
    all_real_of_reduce _ _ _ _ f13,
    all_real_of_reduce _ _ _ _ f14,
    all_real_of_reduce _ _ _ _ f15,
    all_real_of_reduce _ _ _ _ f16,
    all_real_of_reduce _ _ _ _ f17,
    all_real_of_reduce _ _ _ _ f18,
    all_real_of_reduce _ _ _ _ f19,
    all_real_of_reduce _ _ _ _ f20,
    all_nonneg_of_reduce _ _ _ _ n12,
    all_nonneg_of_reduce _ _ _ _ n16,
    all_nonneg_of_reduce _ _ _ _ n20⟩

end Cert.InputDomain

end
-- ==== Proof.RefG.lean ====
/-
  The reference program's result array is the specification `G`.

  The reference computes, row by row, three hidden layers and a read-out. Each hidden layer multiplies the incoming row
  against `W + (sign W - W)` — the sign of the weights, as long as the weights are real numbers —, adds the bias,
  normalises by the stored statistics, and clamps to `[-1, 1]`; between layers the clamped row `t` is replaced by
  `t + (sign t - t)`, which is `sign t` because a clamped value is a real number. The read-out is an affine map onto ten
  logits followed by the shifted logarithm of the softmax, whose shift is the row's largest logit (a fold of `max`
  from `-∞`, then a `max` against `-∞` that changes nothing).

  The proof reads each operation at an index, one layer at a time: `act k` is layer `k`'s clamped output, `sign k` its
  sign, `logits` the read-out, `rowmax` the shift, `out_eq` the result, and `ref_eq_G` assembles the array.
-/
import proofs.«141077_j45140106281104_2_alg».proof.Proof.RefRead
import proofs.«141077_j45140106281104_2_alg».proof.Proof.Spec

noncomputable section

open scoped BigOperators

namespace Cert.RefG

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The straight-through sign -/

/-- `t + (s - t) = s` for real numbers. -/
theorem ste_eq {t s : EReal} (ht : Mlp.IsReal t) (hs : Mlp.IsReal s) : t + (s - t) = s := by
  obtain ⟨a, rfl⟩ := ht; obtain ⟨b, rfl⟩ := hs
  rw [← EReal.coe_sub, ← EReal.coe_add]
  exact congrArg _ (by ring)

/-- `t + (where(t ≥ 0, 1, -1) - t)` is the sign of `t`, for a real number `t`. -/
theorem ste_sgn {t : EReal} (ht : Mlp.IsReal t) :
    t + (Scalar.select (Ideal.cmp .oge t (Ideal.ofBits .f32 0x00000000#32)) (Ideal.ofBits .f32 0x3F800000#32)
      (Ideal.ofBits .f32 0xBF800000#32) - t) = Mlp.sgn t := by
  rw [Mlp.select_ge_eq_sgn]
  exact ste_eq ht (Mlp.isReal_sgn t)

/-! ## The arguments, and the layers of one row -/

variable (a0 : (⟨S16384x784, .f32⟩ : BufTy).Contents (Elt Ideal)) (a1 : (⟨S768x784, .f32⟩ : BufTy).Contents (Elt Ideal))
  (a2 : (⟨S768, .f32⟩ : BufTy).Contents (Elt Ideal)) (a3 : (⟨S768x768, .f32⟩ : BufTy).Contents (Elt Ideal))
  (a4 : (⟨S768, .f32⟩ : BufTy).Contents (Elt Ideal)) (a5 : (⟨S768x768, .f32⟩ : BufTy).Contents (Elt Ideal))
  (a6 : (⟨S768, .f32⟩ : BufTy).Contents (Elt Ideal)) (a7 : (⟨S10x768, .f32⟩ : BufTy).Contents (Elt Ideal))
  (a8 : (⟨S10, .f32⟩ : BufTy).Contents (Elt Ideal))
  (a9 a10 a11 a12 a13 a14 a15 a16 a17 a18 a19 a20 : (⟨S768, .f32⟩ : BufTy).Contents (Elt Ideal))

/-- The first hidden layer of input row `r`. -/
def H1 (r : Fin 16384) : Fin 768 → EReal :=
  Mlp.hid (fun (j : Fin 768) (q : Fin 784) => a1 (ix2 j q)) (fun j : Fin 768 => a2 (ix1 j)) (fun j : Fin 768 => a9 (ix1 j))
    (fun j : Fin 768 => a10 (ix1 j)) (fun j : Fin 768 => a11 (ix1 j)) (fun j : Fin 768 => a12 (ix1 j))
    (fun q : Fin 784 => a0 (ix2 r q))

/-- The second hidden layer of input row `r`, on the signs of the first. -/
def H2 (r : Fin 16384) : Fin 768 → EReal :=
  Mlp.hid (fun (j : Fin 768) (q : Fin 768) => a3 (ix2 j q)) (fun j : Fin 768 => a4 (ix1 j)) (fun j : Fin 768 => a13 (ix1 j))
    (fun j : Fin 768 => a14 (ix1 j)) (fun j : Fin 768 => a15 (ix1 j)) (fun j : Fin 768 => a16 (ix1 j))
    (fun q : Fin 768 => Mlp.sgn (H1 a0 a1 a2 a9 a10 a11 a12 r q))

/-- The third hidden layer of input row `r`, on the signs of the second. -/
def H3 (r : Fin 16384) : Fin 768 → EReal :=
  Mlp.hid (fun (j : Fin 768) (q : Fin 768) => a5 (ix2 j q)) (fun j : Fin 768 => a6 (ix1 j)) (fun j : Fin 768 => a17 (ix1 j))
    (fun j : Fin 768 => a18 (ix1 j)) (fun j : Fin 768 => a19 (ix1 j)) (fun j : Fin 768 => a20 (ix1 j))
    (fun q : Fin 768 => Mlp.sgn (H2 a0 a1 a2 a3 a4 a9 a10 a11 a12 a13 a14 a15 a16 r q))

/-- The ten logits of input row `r`. -/
def Lg (r : Fin 16384) : Fin 10 → EReal :=
  Mlp.lin (fun (c : Fin 10) (q : Fin 768) => a7 (ix2 c q)) (fun c : Fin 10 => a8 (ix1 c)) (H3 a0 a1 a2 a3 a4 a5 a6 a9 a10 a11 a12 a13 a14 a15 a16 a17 a18 a19 a20 r)

/-! ## Layer 1 -/

/-- The straight-through sign of the weights `a1`: entry by entry it is the sign. -/
theorem w1 (h1 : ∀ i, Mlp.IsReal (a1 i)) (i : S768x784.Idx) :
    val_main_v5 (F := Ideal) a1 i = Mlp.sgn (a1 i) := by
  rw [val_main_v5_apply, val_main_v4_apply, val_main_v3_apply, val_main_v2_apply, val_main_v1_apply,
    val_main_v0_apply, val_main_cst_apply, val_main_call0_v0_apply, val_main_cst_0_apply,
    val_main_call0_v1_apply, val_main_cst_1_apply]
  exact ste_sgn (h1 i)

/-- The product of layer 1: the incoming row against the signs of the weights. -/
theorem dot1 (h1 : ∀ i, Mlp.IsReal (a1 i)) (r : Fin 16384) (j : Fin 768) :
    val_main_v7 (F := Ideal) a0 a1 (ix2 r j) = ∑ q : Fin 784, a0 (ix2 r q) * Mlp.sgn (a1 (ix2 j q)) := by
  rw [val_main_v7_apply]
  refine Finset.sum_congr rfl fun q _ => ?_
  have e1 : lidx_main_v7 (ix2 r j) q = ix2 r q := funext fun a => Fin.ext (by match a with | ⟨0, _⟩ => rfl | ⟨1, _⟩ => rfl)
  have e2 : idx_main_v6 (ridx_main_v7 (ix2 r j) q) = ix2 j q := funext fun a => Fin.ext (by match a with | ⟨0, _⟩ => rfl | ⟨1, _⟩ => rfl)
  rw [val_main_v6_apply, w1 a1 h1, e1, e2]

/-- Layer 1 at row `r`, feature `j`: bias, normalisation and clamp around the product against the weight signs. -/
theorem act1 (h1 : ∀ i, Mlp.IsReal (a1 i)) (r : Fin 16384) (j : Fin 768) :
    val_main_v24 (F := Ideal) a0 a1 a2 a9 a10 a11 a12 (ix2 r j) = H1 a0 a1 a2 a9 a10 a11 a12 r j := by
  have eb : idx_main_v8 (idx_main_v9 (ix2 r j)) = ix1 j := funext fun a => Fin.ext (by match a with | ⟨0, _⟩ => rfl)
  have em : idx_main_v11 (idx_main_v12 (ix2 r j)) = ix1 j := funext fun a => Fin.ext (by match a with | ⟨0, _⟩ => rfl)
  have es : idx_main_v18 (idx_main_v19 (ix2 r j)) = ix1 j := funext fun a => Fin.ext (by match a with | ⟨0, _⟩ => rfl)
  have ee : idx_main_v21 (idx_main_v22 (ix2 r j)) = ix1 j := funext fun a => Fin.ext (by match a with | ⟨0, _⟩ => rfl)
  rw [val_main_v24_apply, val_main_call1_v4_apply, val_main_call1_v3_apply, val_main_cst_4_apply,
    val_main_call1_v2_apply, val_main_call1_v1_apply, val_main_call1_v0_apply, val_main_cst_3_apply,
    val_main_v23_apply, val_main_v20_apply, val_main_v13_apply, val_main_v10_apply, dot1 a0 a1 h1,
    val_main_v9_apply, val_main_v8_apply, eb, val_main_v12_apply, val_main_v11_apply, em,
    val_main_v19_apply, val_main_v18_apply, es, val_main_v17_apply, val_main_v16_apply,
    val_main_v15_apply, val_main_v14_apply, val_main_cst_2_apply,
    val_main_v22_apply, val_main_v21_apply, ee]
  rfl

theorem isReal_H1 (r : Fin 16384) (j : Fin 768) : Mlp.IsReal (H1 a0 a1 a2 a9 a10 a11 a12 r j) := Mlp.isReal_clip _

/-- The straight-through sign of layer 1's clamped output is its sign. -/
theorem sign1 (h1 : ∀ i, Mlp.IsReal (a1 i)) (r : Fin 16384) (j : Fin 768) :
    val_main_v30 (F := Ideal) a0 a1 a2 a9 a10 a11 a12 (ix2 r j) = Mlp.sgn (H1 a0 a1 a2 a9 a10 a11 a12 r j) := by
  rw [val_main_v30_apply, val_main_v29_apply, val_main_v28_apply, val_main_v27_apply, val_main_v26_apply,
    val_main_v25_apply, val_main_cst_5_apply, val_main_call2_v0_apply, val_main_cst_6_apply,
    val_main_call2_v1_apply, val_main_cst_7_apply, act1 a0 a1 a2 a9 a10 a11 a12 h1]
  exact ste_sgn (isReal_H1 a0 a1 a2 a9 a10 a11 a12 r j)

/-! ## Layer 2 -/

/-- The straight-through sign of the weights `a3`: entry by entry it is the sign. -/
theorem w2 (h3 : ∀ i, Mlp.IsReal (a3 i)) (i : S768x768.Idx) :
    val_main_v36 (F := Ideal) a3 i = Mlp.sgn (a3 i) := by
  rw [val_main_v36_apply, val_main_v35_apply, val_main_v34_apply, val_main_v33_apply, val_main_v32_apply,
    val_main_v31_apply, val_main_cst_8_apply, val_main_call3_v0_apply, val_main_cst_9_apply,
    val_main_call3_v1_apply, val_main_cst_10_apply]
  exact ste_sgn (h3 i)

/-- The product of layer 2: the incoming row against the signs of the weights. -/
theorem dot2 (h1 : ∀ i, Mlp.IsReal (a1 i)) (h3 : ∀ i, Mlp.IsReal (a3 i)) (r : Fin 16384) (j : Fin 768) :
    val_main_v38 (F := Ideal) a0 a1 a2 a3 a9 a10 a11 a12 (ix2 r j) = ∑ q : Fin 768, Mlp.sgn (H1 a0 a1 a2 a9 a10 a11 a12 r q) * Mlp.sgn (a3 (ix2 j q)) := by
  rw [val_main_v38_apply]
  refine Finset.sum_congr rfl fun q _ => ?_
  have e1 : lidx_main_v38 (ix2 r j) q = ix2 r q := funext fun a => Fin.ext (by match a with | ⟨0, _⟩ => rfl | ⟨1, _⟩ => rfl)
  have e2 : idx_main_v37 (ridx_main_v38 (ix2 r j) q) = ix2 j q := funext fun a => Fin.ext (by match a with | ⟨0, _⟩ => rfl | ⟨1, _⟩ => rfl)
  rw [val_main_v37_apply, w2 a3 h3, e1, e2, sign1 a0 a1 a2 a9 a10 a11 a12 h1]

/-- Layer 2 at row `r`, feature `j`: bias, normalisation and clamp around the product against the weight signs. -/
theorem act2 (h1 : ∀ i, Mlp.IsReal (a1 i)) (h3 : ∀ i, Mlp.IsReal (a3 i)) (r : Fin 16384) (j : Fin 768) :
    val_main_v55 (F := Ideal) a0 a1 a2 a3 a4 a9 a10 a11 a12 a13 a14 a15 a16 (ix2 r j) = H2 a0 a1 a2 a3 a4 a9 a10 a11 a12 a13 a14 a15 a16 r j := by
  have eb : idx_main_v39 (idx_main_v40 (ix2 r j)) = ix1 j := funext fun a => Fin.ext (by match a with | ⟨0, _⟩ => rfl)
  have em : idx_main_v42 (idx_main_v43 (ix2 r j)) = ix1 j := funext fun a => Fin.ext (by match a with | ⟨0, _⟩ => rfl)
  have es : idx_main_v49 (idx_main_v50 (ix2 r j)) = ix1 j := funext fun a => Fin.ext (by match a with | ⟨0, _⟩ => rfl)
  have ee : idx_main_v52 (idx_main_v53 (ix2 r j)) = ix1 j := funext fun a => Fin.ext (by match a with | ⟨0, _⟩ => rfl)
  rw [val_main_v55_apply, val_main_call4_v4_apply, val_main_call4_v3_apply, val_main_cst_13_apply,
    val_main_call4_v2_apply, val_main_call4_v1_apply, val_main_call4_v0_apply, val_main_cst_12_apply,
    val_main_v54_apply, val_main_v51_apply, val_main_v44_apply, val_main_v41_apply, dot2 a0 a1 a2 a3 a9 a10 a11 a12 h1 h3,
    val_main_v40_apply, val_main_v39_apply, eb, val_main_v43_apply, val_main_v42_apply, em,
    val_main_v50_apply, val_main_v49_apply, es, val_main_v48_apply, val_main_v47_apply,
    val_main_v46_apply, val_main_v45_apply, val_main_cst_11_apply,
    val_main_v53_apply, val_main_v52_apply, ee]
  rfl

theorem isReal_H2 (r : Fin 16384) (j : Fin 768) : Mlp.IsReal (H2 a0 a1 a2 a3 a4 a9 a10 a11 a12 a13 a14 a15 a16 r j) := Mlp.isReal_clip _

/-- The straight-through sign of layer 2's clamped output is its sign. -/
theorem sign2 (h1 : ∀ i, Mlp.IsReal (a1 i)) (h3 : ∀ i, Mlp.IsReal (a3 i)) (r : Fin 16384) (j : Fin 768) :
    val_main_v61 (F := Ideal) a0 a1 a2 a3 a4 a9 a10 a11 a12 a13 a14 a15 a16 (ix2 r j) = Mlp.sgn (H2 a0 a1 a2 a3 a4 a9 a10 a11 a12 a13 a14 a15 a16 r j) := by
  rw [val_main_v61_apply, val_main_v60_apply, val_main_v59_apply, val_main_v58_apply, val_main_v57_apply,
    val_main_v56_apply, val_main_cst_14_apply, val_main_call5_v0_apply, val_main_cst_15_apply,
    val_main_call5_v1_apply, val_main_cst_16_apply, act2 a0 a1 a2 a3 a4 a9 a10 a11 a12 a13 a14 a15 a16 h1 h3]
  exact ste_sgn (isReal_H2 a0 a1 a2 a3 a4 a9 a10 a11 a12 a13 a14 a15 a16 r j)

/-! ## Layer 3 -/

/-- The straight-through sign of the weights `a5`: entry by entry it is the sign. -/
theorem w3 (h5 : ∀ i, Mlp.IsReal (a5 i)) (i : S768x768.Idx) :
    val_main_v67 (F := Ideal) a5 i = Mlp.sgn (a5 i) := by
  rw [val_main_v67_apply, val_main_v66_apply, val_main_v65_apply, val_main_v64_apply, val_main_v63_apply,
    val_main_v62_apply, val_main_cst_17_apply, val_main_call6_v0_apply, val_main_cst_18_apply,
    val_main_call6_v1_apply, val_main_cst_19_apply]
  exact ste_sgn (h5 i)

/-- The product of layer 3: the incoming row against the signs of the weights. -/
theorem dot3 (h1 : ∀ i, Mlp.IsReal (a1 i)) (h3 : ∀ i, Mlp.IsReal (a3 i)) (h5 : ∀ i, Mlp.IsReal (a5 i)) (r : Fin 16384) (j : Fin 768) :
    val_main_v69 (F := Ideal) a0 a1 a2 a3 a4 a5 a9 a10 a11 a12 a13 a14 a15 a16 (ix2 r j) = ∑ q : Fin 768, Mlp.sgn (H2 a0 a1 a2 a3 a4 a9 a10 a11 a12 a13 a14 a15 a16 r q) * Mlp.sgn (a5 (ix2 j q)) := by
  rw [val_main_v69_apply]
  refine Finset.sum_congr rfl fun q _ => ?_
  have e1 : lidx_main_v69 (ix2 r j) q = ix2 r q := funext fun a => Fin.ext (by match a with | ⟨0, _⟩ => rfl | ⟨1, _⟩ => rfl)
  have e2 : idx_main_v68 (ridx_main_v69 (ix2 r j) q) = ix2 j q := funext fun a => Fin.ext (by match a with | ⟨0, _⟩ => rfl | ⟨1, _⟩ => rfl)
  rw [val_main_v68_apply, w3 a5 h5, e1, e2, sign2 a0 a1 a2 a3 a4 a9 a10 a11 a12 a13 a14 a15 a16 h1 h3]

/-- Layer 3 at row `r`, feature `j`: bias, normalisation and clamp around the product against the weight signs. -/
theorem act3 (h1 : ∀ i, Mlp.IsReal (a1 i)) (h3 : ∀ i, Mlp.IsReal (a3 i)) (h5 : ∀ i, Mlp.IsReal (a5 i)) (r : Fin 16384) (j : Fin 768) :
    val_main_v86 (F := Ideal) a0 a1 a2 a3 a4 a5 a6 a9 a10 a11 a12 a13 a14 a15 a16 a17 a18 a19 a20 (ix2 r j) = H3 a0 a1 a2 a3 a4 a5 a6 a9 a10 a11 a12 a13 a14 a15 a16 a17 a18 a19 a20 r j := by
  have eb : idx_main_v70 (idx_main_v71 (ix2 r j)) = ix1 j := funext fun a => Fin.ext (by match a with | ⟨0, _⟩ => rfl)
  have em : idx_main_v73 (idx_main_v74 (ix2 r j)) = ix1 j := funext fun a => Fin.ext (by match a with | ⟨0, _⟩ => rfl)
  have es : idx_main_v80 (idx_main_v81 (ix2 r j)) = ix1 j := funext fun a => Fin.ext (by match a with | ⟨0, _⟩ => rfl)
  have ee : idx_main_v83 (idx_main_v84 (ix2 r j)) = ix1 j := funext fun a => Fin.ext (by match a with | ⟨0, _⟩ => rfl)
  rw [val_main_v86_apply, val_main_call7_v4_apply, val_main_call7_v3_apply, val_main_cst_22_apply,
    val_main_call7_v2_apply, val_main_call7_v1_apply, val_main_call7_v0_apply, val_main_cst_21_apply,
    val_main_v85_apply, val_main_v82_apply, val_main_v75_apply, val_main_v72_apply, dot3 a0 a1 a2 a3 a4 a5 a9 a10 a11 a12 a13 a14 a15 a16 h1 h3 h5,
    val_main_v71_apply, val_main_v70_apply, eb, val_main_v74_apply, val_main_v73_apply, em,
    val_main_v81_apply, val_main_v80_apply, es, val_main_v79_apply, val_main_v78_apply,
    val_main_v77_apply, val_main_v76_apply, val_main_cst_20_apply,
    val_main_v84_apply, val_main_v83_apply, ee]
  rfl

/-! ## The read-out and the logarithm of the softmax -/

/-- The logits: the third layer's row against the read-out weights, plus the bias. -/
theorem logits (h1 : ∀ i, Mlp.IsReal (a1 i)) (h3 : ∀ i, Mlp.IsReal (a3 i)) (h5 : ∀ i, Mlp.IsReal (a5 i)) (r : Fin 16384) (c : Fin 10) :
    val_main_v91 (F := Ideal) a0 a1 a2 a3 a4 a5 a6 a7 a8 a9 a10 a11 a12 a13 a14 a15 a16 a17 a18 a19 a20 (ix2 r c) = Lg a0 a1 a2 a3 a4 a5 a6 a7 a8 a9 a10 a11 a12 a13 a14 a15 a16 a17 a18 a19 a20 r c := by
  have eb : idx_main_v89 (idx_main_v90 (ix2 r c)) = ix1 c := funext fun a => Fin.ext (by match a with | ⟨0, _⟩ => rfl)
  have hsum : val_main_v88 (F := Ideal) a0 a1 a2 a3 a4 a5 a6 a7 a9 a10 a11 a12 a13 a14 a15 a16 a17 a18 a19 a20 (ix2 r c) = ∑ q : Fin 768, H3 a0 a1 a2 a3 a4 a5 a6 a9 a10 a11 a12 a13 a14 a15 a16 a17 a18 a19 a20 r q * a7 (ix2 c q) := by
    rw [val_main_v88_apply]
    refine Finset.sum_congr rfl fun q _ => ?_
    have e1 : lidx_main_v88 (ix2 r c) q = ix2 r q := funext fun a => Fin.ext (by match a with | ⟨0, _⟩ => rfl | ⟨1, _⟩ => rfl)
    have e2 : idx_main_v87 (ridx_main_v88 (ix2 r c) q) = ix2 c q := funext fun a => Fin.ext (by match a with | ⟨0, _⟩ => rfl | ⟨1, _⟩ => rfl)
    rw [val_main_v87_apply, e1, e2, act3 a0 a1 a2 a3 a4 a5 a6 a9 a10 a11 a12 a13 a14 a15 a16 a17 a18 a19 a20 h1 h3 h5]
  rw [val_main_v91_apply, hsum, val_main_v90_apply, val_main_v89_apply, eb]
  rfl

/-- The shift: the fold of `max` from `-∞` over the row's ten logits (the further `max` against `-∞` changes nothing). -/
theorem rowmax (h1 : ∀ i, Mlp.IsReal (a1 i)) (h3 : ∀ i, Mlp.IsReal (a3 i)) (h5 : ∀ i, Mlp.IsReal (a5 i)) (r : Fin 16384) :
    val_main_call8_v2 (F := Ideal) a0 a1 a2 a3 a4 a5 a6 a7 a8 a9 a10 a11 a12 a13 a14 a15 a16 a17 a18 a19 a20 (ix1 r) = Mlp.top (Lg a0 a1 a2 a3 a4 a5 a6 a7 a8 a9 a10 a11 a12 a13 a14 a15 a16 a17 a18 a19 a20 r) := by
  have hred : S16384x10.Reduces [1] S16384 := by decide
  have hf : (val_main_v91 (F := Ideal) a0 a1 a2 a3 a4 a5 a6 a7 a8 a9 a10 a11 a12 a13 a14 a15 a16 a17 a18 a19 a20 ∘ hred.lift (ix1 r)) = Lg a0 a1 a2 a3 a4 a5 a6 a7 a8 a9 a10 a11 a12 a13 a14 a15 a16 a17 a18 a19 a20 r :=
    funext fun (k : Fin 10) => by
      have e : hred.lift (ix1 r) k = ix2 r k := funext fun a => Fin.ext (by match a with | ⟨0, _⟩ => rfl | ⟨1, _⟩ => rfl)
      show val_main_v91 (F := Ideal) a0 a1 a2 a3 a4 a5 a6 a7 a8 a9 a10 a11 a12 a13 a14 a15 a16 a17 a18 a19 a20 (hred.lift (ix1 r) k) = _
      rw [e, logits a0 a1 a2 a3 a4 a5 a6 a7 a8 a9 a10 a11 a12 a13 a14 a15 a16 a17 a18 a19 a20 h1 h3 h5]
  rw [val_main_call8_v2_apply, val_main_call8_v1_apply, val_main_call8_cst_0_apply]
  unfold val_main_call8_v0
  rw [Host.reduce_eq_fold_single (FloatOps.maximumf (F := Ideal) (φ := .f32)) _ _ reducesTo_S16384x10_S16384_d1 hred h_S_,
    val_main_call8_cst_apply, hf]
  exact Mlp.max_negInf _

/-- A logit minus the shift. -/
theorem shifted (h1 : ∀ i, Mlp.IsReal (a1 i)) (h3 : ∀ i, Mlp.IsReal (a3 i)) (h5 : ∀ i, Mlp.IsReal (a5 i)) (r : Fin 16384) (c : Fin 10) :
    val_main_call8_v5 (F := Ideal) a0 a1 a2 a3 a4 a5 a6 a7 a8 a9 a10 a11 a12 a13 a14 a15 a16 a17 a18 a19 a20 (ix2 r c) = Lg a0 a1 a2 a3 a4 a5 a6 a7 a8 a9 a10 a11 a12 a13 a14 a15 a16 a17 a18 a19 a20 r c - Mlp.top (Lg a0 a1 a2 a3 a4 a5 a6 a7 a8 a9 a10 a11 a12 a13 a14 a15 a16 a17 a18 a19 a20 r) := by
  have e : idx_main_call8_v3 (idx_main_call8_v4 (ix2 r c)) = ix1 r := funext fun a => Fin.ext (by match a with | ⟨0, _⟩ => rfl)
  rw [val_main_call8_v5_apply, logits a0 a1 a2 a3 a4 a5 a6 a7 a8 a9 a10 a11 a12 a13 a14 a15 a16 a17 a18 a19 a20 h1 h3 h5, val_main_call8_v4_apply, val_main_call8_v3_apply, e,
    rowmax a0 a1 a2 a3 a4 a5 a6 a7 a8 a9 a10 a11 a12 a13 a14 a15 a16 a17 a18 a19 a20 h1 h3 h5]
  rfl

/-- The result at row `r`, class `c`. -/
theorem out_eq (h1 : ∀ i, Mlp.IsReal (a1 i)) (h3 : ∀ i, Mlp.IsReal (a3 i)) (h5 : ∀ i, Mlp.IsReal (a5 i)) (r : Fin 16384) (c : Fin 10) :
    val_main_v92 (F := Ideal) a0 a1 a2 a3 a4 a5 a6 a7 a8 a9 a10 a11 a12 a13 a14 a15 a16 a17 a18 a19 a20 (ix2 r c) = Mlp.lsm (Lg a0 a1 a2 a3 a4 a5 a6 a7 a8 a9 a10 a11 a12 a13 a14 a15 a16 a17 a18 a19 a20 r) c := by
  have e : idx_main_call8_v8 (idx_main_call8_v10 (ix2 r c)) = ix1 r := funext fun a => Fin.ext (by match a with | ⟨0, _⟩ => rfl)
  have hsum : (∑ k : Fin 10, val_main_call8_v6 (F := Ideal) a0 a1 a2 a3 a4 a5 a6 a7 a8 a9 a10 a11 a12 a13 a14 a15 a16 a17 a18 a19 a20 (idx_main_call8_v7 (ix1 r) k))
      = ∑ k : Fin 10, Ideal.exp (Lg a0 a1 a2 a3 a4 a5 a6 a7 a8 a9 a10 a11 a12 a13 a14 a15 a16 a17 a18 a19 a20 r k - Mlp.top (Lg a0 a1 a2 a3 a4 a5 a6 a7 a8 a9 a10 a11 a12 a13 a14 a15 a16 a17 a18 a19 a20 r)) :=
    Finset.sum_congr rfl fun k _ => by
      have e7 : idx_main_call8_v7 (ix1 r) k = ix2 r k := funext fun a => Fin.ext (by match a with | ⟨0, _⟩ => rfl | ⟨1, _⟩ => rfl)
      rw [e7, val_main_call8_v6_apply, shifted a0 a1 a2 a3 a4 a5 a6 a7 a8 a9 a10 a11 a12 a13 a14 a15 a16 a17 a18 a19 a20 h1 h3 h5]
      rfl
  rw [val_main_v92_apply, shifted a0 a1 a2 a3 a4 a5 a6 a7 a8 a9 a10 a11 a12 a13 a14 a15 a16 a17 a18 a19 a20 h1 h3 h5, val_main_call8_v10_apply, val_main_call8_v9_apply, val_main_call8_v8_apply, e,
    val_main_call8_v7_apply, val_main_call8_cst_1_apply, hsum]
  simp only [Ideal.ofBits_def, Ideal.ofBits_zero_f32, zero_add]
  rfl

/-! ## The whole array -/

/-- The reference program's result array is `G` of its arguments, as soon as the three binarised weight matrices hold
    real numbers. -/
theorem ref_eq_G (h1 : ∀ i, Mlp.IsReal (a1 i)) (h3 : ∀ i, Mlp.IsReal (a3 i)) (h5 : ∀ i, Mlp.IsReal (a5 i)) :
    val_main_v92 (F := Ideal) a0 a1 a2 a3 a4 a5 a6 a7 a8 a9 a10 a11 a12 a13 a14 a15 a16 a17 a18 a19 a20 = Mlp.G a0 a1 a2 a3 a4 a5 a6 a7 a8 a9 a10 a11 a12 a13 a14 a15 a16 a17 a18 a19 a20 := by
  funext i
  obtain ⟨r, c, rfl⟩ : ∃ (r : Fin 16384) (c : Fin 10), i = ix2 r c := ⟨i 0, i 1, eq_ix2 i⟩
  exact (out_eq a0 a1 a2 a3 a4 a5 a6 a7 a8 a9 a10 a11 a12 a13 a14 a15 a16 a17 a18 a19 a20 h1 h3 h5 r c).trans rfl

end Cert.RefG

end
-- ==== Proof.KerPay.lean ====
/-
  The kernel body's arithmetic, read at one entry of its output block.

  The body is one pure term of the fifteen blocks it loads: the input rows, each layer's weight matrix (already
  binarised), bias, scale and shift, and the read-out's weights and bias. Read at row `r`, column `c` of the output
  block it depends on row `r` of the input block only, and is the folded network of the specification (`Cert.Mlp.rowK`)
  on that row: every matrix product against a transposed weight block is a sum over the contracted coordinate, every
  `[1, n]` vector broadcast down the rows is the vector's entry in the column, the compare-and-select is the sign, and
  the two lane reductions are the fold of `max` and the sum over the ten logits.
-/
import proofs.«141077_j45140106281104_2_alg».proof.Proof.Gen.KernelIdeal.Skeleton
import proofs.«141077_j45140106281104_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPay

open Idealize.ShloMosaic Idealize.ShloMosaic.TcCoe Idealize.ShloMosaic.ValueIdx Cert.KernelIdeal Cert.KernelIdeal.Gen Cert.Mlp

/-! ## A matrix product read at an entry -/

/-- A product of an `[A, K]` by a `[K, B]` matrix into a zero accumulator, contracting the one shared axis, is at
    `(r, j)` the sum over `q` of `lhs (r, q) · rhs (q, j)`; the four facts say which coordinate of each operand index is
    the output's and which the contracted one. -/
theorem matmul_apply_ix2 {A K B : ℕ} (d : DotDims ⟨2, ![A, K]⟩ ⟨2, ![K, B]⟩ ⟨2, ![A, B]⟩)
    (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    {φ₁ φ₂ : FTy} (lhs : FVec Ideal ⟨2, ![A, K]⟩ φ₁) (rhs : FVec Ideal ⟨2, ![K, B]⟩ φ₂) (r : Fin A) (j : Fin B) :
    matmul d none lhs rhs (constant ⟨2, ![A, B]⟩ .f32 0x00000000#32) (ix2 r j) = ∑ q : Fin K, lhs (ix2 r q) * rhs (ix2 q j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun a => Fin.ext (by
    match a with
    | ⟨0, _⟩ => exact hl0 _ _
    | ⟨1, _⟩ => exact (hl1 _ _).trans hk)
  have er : d.rhsIdx (ix2 r j) ((contrEquiv1 d K hr hs).symm k) = ix2 k j := funext fun a => Fin.ext (by
    match a with
    | ⟨0, _⟩ => exact (hr0 _ _).trans hk
    | ⟨1, _⟩ => exact hr1 _ _)
  rw [el, er]

/-- A weight block `[B, K]`, reshaped to itself and transposed, read at `(q, j)` is the block at `(j, q)`. -/
theorem wT_apply {a b : ℕ} {α : Type} (w : (⟨2, ![a, b]⟩ : Shape).Idx → α) (hc : (⟨2, ![a, b]⟩ : Shape).ShapeCasts ⟨2, ![a, b]⟩)
    (ht : (⟨2, ![a, b]⟩ : Shape).Transposes [1, 0] ⟨2, ![b, a]⟩) (q : Fin b) (j : Fin a) :
    transpose ⟨2, ![b, a]⟩ [1, 0] (shapeCast ⟨2, ![a, b]⟩ w hc) ht (ix2 q j) = w (ix2 j q) := by
  rw [shapeCast_self]; exact transpose_ix2_apply w ht q j

/-- A `[1, b]` vector, reshaped to itself and broadcast down `a` rows, read at `(r, j)` is its entry `j`. -/
theorem rowvec_apply {a b : ℕ} {α : Type} (v : (⟨2, ![1, b]⟩ : Shape).Idx → α) (hc : (⟨2, ![1, b]⟩ : Shape).ShapeCasts ⟨2, ![1, b]⟩)
    (hb : (⟨2, ![1, b]⟩ : Shape).Broadcasts ⟨2, ![a, b]⟩) (r : Fin a) (j : Fin b) :
    broadcastTo ⟨2, ![a, b]⟩ (shapeCast ⟨2, ![1, b]⟩ v hc) hb (ix2 r j) = v (ix2 (0 : Fin 1) j) := by
  rw [shapeCast_self]; exact broadcastTo_1b_ab_apply v hb r j

/-- The product against a TRANSPOSED weight block `w : [B, K]`: at `(r, j)` the sum over `q` of `lhs (r, q) · w (j, q)`. -/
theorem mmT_apply {A K B : ℕ} (d : DotDims ⟨2, ![A, K]⟩ ⟨2, ![K, B]⟩ ⟨2, ![A, B]⟩)
    (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    {φ₁ φ₂ : FTy} (lhs : FVec Ideal ⟨2, ![A, K]⟩ φ₁) (w : FVec Ideal ⟨2, ![B, K]⟩ φ₂)
    (hc : (⟨2, ![B, K]⟩ : Shape).ShapeCasts ⟨2, ![B, K]⟩) (ht : (⟨2, ![B, K]⟩ : Shape).Transposes [1, 0] ⟨2, ![K, B]⟩)
    (r : Fin A) (j : Fin B) :
    matmul d none lhs (transpose ⟨2, ![K, B]⟩ [1, 0] (shapeCast ⟨2, ![B, K]⟩ w hc) ht) (constant ⟨2, ![A, B]⟩ .f32 0x00000000#32) (ix2 r j)
      = ∑ q : Fin K, lhs (ix2 r q) * w (ix2 j q) :=
  (matmul_apply_ix2 d hr hs hl0 hl1 hr0 hr1 lhs _ r j).trans (Finset.sum_congr rfl fun q _ => by rw [wT_apply])

/-! ## The three products' coordinate facts -/

theorem d1_l0 (i : _) (q : dot_S1024x784_S784x768_S1024x768_1_0_0_1_n_n.contr.Idx) : (dot_S1024x784_S784x768_S1024x768_1_0_0_1_n_n.lhsIdx i q 0).val = (i 0).val := by
  unfold DotDims.lhsIdx
  rw [dif_neg (show ¬(0 : Fin S1024x784.rank) ∈ dot_S1024x784_S784x768_S1024x768_1_0_0_1_n_n.lhsBatch by decide), dif_pos (show (0 : Fin S1024x784.rank) ∈ dot_S1024x784_S784x768_S1024x768_1_0_0_1_n_n.lhsNonContracting by decide)]
  rfl
theorem d1_l1 (i : _) (q : dot_S1024x784_S784x768_S1024x768_1_0_0_1_n_n.contr.Idx) : (dot_S1024x784_S784x768_S1024x768_1_0_0_1_n_n.lhsIdx i q 1).val = (q ⟨0, by decide⟩).val :=
  dot_S1024x784_S784x768_S1024x768_1_0_0_1_n_n.lhsIdx_val_of_single rfl i q
theorem d1_r0 (i : _) (q : dot_S1024x784_S784x768_S1024x768_1_0_0_1_n_n.contr.Idx) : (dot_S1024x784_S784x768_S1024x768_1_0_0_1_n_n.rhsIdx i q 0).val = (q ⟨0, by decide⟩).val :=
  dot_S1024x784_S784x768_S1024x768_1_0_0_1_n_n.rhsIdx_val_of_single rfl i q
theorem d1_r1 (i : _) (q : dot_S1024x784_S784x768_S1024x768_1_0_0_1_n_n.contr.Idx) : (dot_S1024x784_S784x768_S1024x768_1_0_0_1_n_n.rhsIdx i q 1).val = (i 1).val := by
  unfold DotDims.rhsIdx
  rw [dif_neg (show ¬(1 : Fin S784x768.rank) ∈ dot_S1024x784_S784x768_S1024x768_1_0_0_1_n_n.rhsBatch by decide), dif_pos (show (1 : Fin S784x768.rank) ∈ dot_S1024x784_S784x768_S1024x768_1_0_0_1_n_n.rhsNonContracting by decide)]
  rfl

theorem d2_l0 (i : _) (q : dot_S1024x768_S768x768_S1024x768_1_0_0_1_n_n.contr.Idx) : (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem d2_l1 (i : _) (q : dot_S1024x768_S768x768_S1024x768_1_0_0_1_n_n.contr.Idx) : (dot_S1024x768_S768x768_S1024x768_1_0_0_1_n_n.lhsIdx i q 1).val = (q ⟨0, by decide⟩).val :=
  dot_S1024x768_S768x768_S1024x768_1_0_0_1_n_n.lhsIdx_val_of_single rfl i q
theorem d2_r0 (i : _) (q : dot_S1024x768_S768x768_S1024x768_1_0_0_1_n_n.contr.Idx) : (dot_S1024x768_S768x768_S1024x768_1_0_0_1_n_n.rhsIdx i q 0).val = (q ⟨0, by decide⟩).val :=
  dot_S1024x768_S768x768_S1024x768_1_0_0_1_n_n.rhsIdx_val_of_single rfl i q
theorem d2_r1 (i : _) (q : dot_S1024x768_S768x768_S1024x768_1_0_0_1_n_n.contr.Idx) : (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

theorem d4_l0 (i : _) (q : dot_S1024x768_S768x10_S1024x10_1_0_0_1_n_n.contr.Idx) : (dot_S1024x768_S768x10_S1024x10_1_0_0_1_n_n.lhsIdx i q 0).val = (i 0).val := by
  unfold DotDims.lhsIdx
  rw [dif_neg (show ¬(0 : Fin S1024x768.rank) ∈ dot_S1024x768_S768x10_S1024x10_1_0_0_1_n_n.lhsBatch by decide), dif_pos (show (0 : Fin S1024x768.rank) ∈ dot_S1024x768_S768x10_S1024x10_1_0_0_1_n_n.lhsNonContracting by decide)]
  rfl
theorem d4_l1 (i : _) (q : dot_S1024x768_S768x10_S1024x10_1_0_0_1_n_n.contr.Idx) : (dot_S1024x768_S768x10_S1024x10_1_0_0_1_n_n.lhsIdx i q 1).val = (q ⟨0, by decide⟩).val :=
  dot_S1024x768_S768x10_S1024x10_1_0_0_1_n_n.lhsIdx_val_of_single rfl i q
theorem d4_r0 (i : _) (q : dot_S1024x768_S768x10_S1024x10_1_0_0_1_n_n.contr.Idx) : (dot_S1024x768_S768x10_S1024x10_1_0_0_1_n_n.rhsIdx i q 0).val = (q ⟨0, by decide⟩).val :=
  dot_S1024x768_S768x10_S1024x10_1_0_0_1_n_n.rhsIdx_val_of_single rfl i q
theorem d4_r1 (i : _) (q : dot_S1024x768_S768x10_S1024x10_1_0_0_1_n_n.contr.Idx) : (dot_S1024x768_S768x10_S1024x10_1_0_0_1_n_n.rhsIdx i q 1).val = (i 1).val := by
  unfold DotDims.rhsIdx
  rw [dif_neg (show ¬(1 : Fin S768x10.rank) ∈ dot_S1024x768_S768x10_S1024x10_1_0_0_1_n_n.rhsBatch by decide), dif_pos (show (1 : Fin S768x10.rank) ∈ dot_S1024x768_S768x10_S1024x10_1_0_0_1_n_n.rhsNonContracting by decide)]
  rfl

/-! ## The pointwise pieces -/

/-- Scale, shift, clamp to `[-1, 1]` at an entry. -/
theorem clamp_apply {s : Shape} (h a c : FVec Ideal s .f32) (i : s.Idx) :
    minimumf (broadcast s (Scalar.ofBits .f32 0x3F800000#32)) (maximumf (broadcast s (Scalar.ofBits .f32 0xBF800000#32)) (addf (mulf h a) c)) i
      = clip (h i * a i + c i) := rfl

/-- The sign of a vector at an entry: compare with zero, select `1` or `-1`, narrow the format. -/
theorem signOf_apply {s : Shape} (y : FVec Ideal s .f32) (hlt : FTy.bf16.bits < FTy.f32.bits) (i : s.Idx) :
    (truncf .bf16 (select (cmpf .oge y (broadcast s (Scalar.ofBits (F := Ideal) .f32 0x00000000#32)))
      (broadcast s (Scalar.ofBits (F := Ideal) .f32 0x3F800000#32))
      (broadcast s (Scalar.ofBits (F := Ideal) .f32 0xBF800000#32)) : FVec Ideal s .f32) hlt : FVec Ideal s .bf16) i = sgn (y i) :=
  select_ge_eq_sgn (y i)

/-! ## The two lane reductions over the ten logits -/

theorem lift_eq (r : Fin 1024) (c : Fin 10) : reduces_S1024x10_S1024.lift (ix1 r) c = ix2 r c :=
  funext fun a => Fin.ext (by match a with | ⟨0, _⟩ => rfl | ⟨1, _⟩ => rfl)

/-- The row maximum: the fold of `max` from the word of `-∞` over the row's ten entries. -/
theorem rowmax_apply (v : FVec Ideal S1024x10 .f32) (hφ : FKind.Formats FTy.f32)
    (hacc : (0xFF800000#32 : BitVec FTy.f32.bits) = FKind.maximumf.neutral FTy.f32 hφ) (r : Fin 1024) :
    multiReduction .maximumf [1] S1024 v 0xFF800000#32 reduces_S1024x10_S1024 hφ hacc (ix1 r) = top (fun c => v (ix2 r c)) := by
  refine (Ideal.multiReduction_maximumf_single v 0xFF800000#32 reduces_S1024x10_S1024 hφ hacc (ix1 r)).trans ?_
  unfold top
  exact congrArg (fun f : Fin 10 → EReal => Finset.fold max (Ideal.ofBits .f32 0xFF800000#32) f Finset.univ)
    (funext fun c => congrArg v (lift_eq r c))

/-- The row sum. -/
theorem rowsum_apply (v : FVec Ideal S1024x10 .f32) (hφ : FKind.Formats FTy.f32)
    (hacc : (0x00000000#32 : BitVec FTy.f32.bits) = FKind.add.neutral FTy.f32 hφ) (r : Fin 1024) :
    multiReduction .add [1] S1024 v 0x00000000#32 reduces_S1024x10_S1024 hφ hacc (ix1 r) = ∑ c : Fin 10, v (ix2 r c) :=
  (Ideal.multiReduction_add_single v 0x00000000#32 reduces_S1024x10_S1024 hφ hacc (ix1 r)).trans
    (Finset.sum_congr rfl fun c _ => congrArg v (lift_eq r c))

/-- A column `[1024, 1]` broadcast across ten columns, read at `(r, c)`, is the column's entry `r`. -/
theorem bcol_apply {α : Type} (w : S1024x1.Idx → α) (hb : S1024x1.Broadcasts S1024x10) (r : Fin 1024) (c : Fin 10) :
    broadcastTo S1024x10 w hb (ix2 r c) = w (ix2 r (0 : Fin 1)) :=
  broadcastTo_apply w hb (ix2 r c) (ix2 r (0 : Fin 1)) fun ax => by
    match ax with
    | ⟨0, _⟩ => show r.val = if (1024 : ℕ) = 1 then 0 else r.val; rw [if_neg (by decide)]
    | ⟨1, _⟩ => show (0 : ℕ) = if (1 : ℕ) = 1 then 0 else c.val; rw [if_pos rfl]

/-- A per-row value `[1024]` reshaped to a column `[1024, 1]`, read at `(r, 0)`, is the value of row `r`. -/
theorem scol_apply {α : Type} (v : S1024.Idx → α) (hc : S1024.ShapeCasts S1024x1) (r : Fin 1024) :
    shapeCast S1024x1 v hc (ix2 r (0 : Fin 1)) = v (ix1 r) := by
  refine shapeCast_apply v hc (ix2 r (0 : Fin 1)) (ix1 r) ?_
  rw [Shape.rowMajor_val_one, Shape.rowMajor_val_two]
  show r.val = r.val * 1 + 0
  omega

/-- The logarithm of the softmax over the ten columns, as the body computes it from a block of logits — subtract the
    row maximum, exponentiate, sum the row, take the logarithm, subtract — read at `(r, c)`. -/
theorem lsm_vec_apply (Lg : FVec Ideal S1024x10 .f32) (hφ : FKind.Formats FTy.f32)
    (hm : (0xFF800000#32 : BitVec FTy.f32.bits) = FKind.maximumf.neutral FTy.f32 hφ)
    (ha : (0x00000000#32 : BitVec FTy.f32.bits) = FKind.add.neutral FTy.f32 hφ)
    (hc : S1024.ShapeCasts S1024x1) (hb : S1024x1.Broadcasts S1024x10) (r : Fin 1024) (c : Fin 10) :
    subf (subf Lg (broadcastTo S1024x10 (shapeCast S1024x1 (multiReduction .maximumf [1] S1024 Lg 0xFF800000#32 reduces_S1024x10_S1024 hφ hm) hc) hb))
      (broadcastTo S1024x10 (log (shapeCast S1024x1 (multiReduction .add [1] S1024
          (exp (subf Lg (broadcastTo S1024x10 (shapeCast S1024x1 (multiReduction .maximumf [1] S1024 Lg 0xFF800000#32 reduces_S1024x10_S1024 hφ hm) hc) hb)))
          0x00000000#32 reduces_S1024x10_S1024 hφ ha) hc)) hb) (ix2 r c)
      = lsm (fun c' => Lg (ix2 r c')) c := by
  have hz : ∀ c' : Fin 10, subf Lg (broadcastTo S1024x10 (shapeCast S1024x1 (multiReduction .maximumf [1] S1024 Lg 0xFF800000#32 reduces_S1024x10_S1024 hφ hm) hc) hb) (ix2 r c')
      = Lg (ix2 r c') - top (fun c'' => Lg (ix2 r c'')) := fun c' => by
    show Lg (ix2 r c') - broadcastTo S1024x10 _ hb (ix2 r c') = _
    rw [bcol_apply, scol_apply, rowmax_apply]
  show subf Lg _ (ix2 r c) - broadcastTo S1024x10 _ hb (ix2 r c) = _
  rw [hz c, bcol_apply]
  show _ - Ideal.log (shapeCast S1024x1 _ hc (ix2 r (0 : Fin 1))) = _
  rw [scol_apply, rowsum_apply]
  unfold lsm
  refine congrArg (fun t => (Lg (ix2 r c) - top fun c'' => Lg (ix2 r c'')) - Ideal.log t) (Finset.sum_congr rfl fun c' _ => ?_)
  show Ideal.exp (subf Lg _ (ix2 r c')) = _
  rw [hz c']

/-! ## The three payloads at an entry -/

/-- The first payload — the first hidden layer, its signs, and their product against the second layer's weights —
    at `(r, j)`. -/
theorem pay2_apply (x0 : Vec Ideal S1024x784 .f32) (x1 : Vec Ideal S768x784 .bf16) (x2 x3 x4 : Vec Ideal S1x768 .f32)
    (x5 : Vec Ideal S768x768 .bf16) (r : Fin 1024) (j : Fin 768) :
    k0_pay2 x0 x1 x2 x3 x4 x5 (ix2 r j)
      = ∑ q : Fin 768, sgn (hidK1 (fun j q => x1 (ix2 j q)) (fun j => x2 (ix2 0 j)) (fun j => x3 (ix2 0 j)) (fun j => x4 (ix2 0 j))
          (fun q => x0 (ix2 r q)) q) * x5 (ix2 j q) := by
  simp only [k0_pay2]
  refine (mmT_apply dot_S1024x768_S768x768_S1024x768_1_0_0_1_n_n rfl rfl d2_l0 d2_l1 d2_r0 d2_r1 _ x5 _ _ r j).trans ?_
  refine Finset.sum_congr rfl fun q _ => ?_
  rw [signOf_apply, clamp_apply]
  refine congrArg (fun t => sgn (clip t) * x5 (ix2 j q)) ?_
  show (matmul dot_S1024x784_S784x768_S1024x768_1_0_0_1_n_n none _ _ _ (ix2 r q) + matmul dot_S1024x784_S784x768_S1024x768_1_0_0_1_n_n none _ _ _ (ix2 r q) + _) * _ + _ = _
  rw [mmT_apply dot_S1024x784_S784x768_S1024x768_1_0_0_1_n_n rfl rfl d1_l0 d1_l1 d1_r0 d1_r1, mmT_apply dot_S1024x784_S784x768_S1024x768_1_0_0_1_n_n rfl rfl d1_l0 d1_l1 d1_r0 d1_r1,
    rowvec_apply, rowvec_apply, rowvec_apply]
  rfl

/-- The second payload — bias, scale, shift, clamp, sign of the second layer, the product against the third
    layer's weights, and the third layer's bias, scale and shift — at `(r, j)`, from the first payload's values. -/
theorem pay3_apply (v37 : FVec Ideal S1024x768 .f32) (x6 x7 x8 : Vec Ideal S1x768 .f32) (x9 : Vec Ideal S768x768 .bf16)
    (x10 x11 x12 : Vec Ideal S1x768 .f32) (r : Fin 1024) (j : Fin 768) :
    k0_pay3 v37 x6 x7 x8 x9 x10 x11 x12 (ix2 r j)
      = ((∑ q : Fin 768, sgn (clip ((v37 (ix2 r q) + x6 (ix2 0 q)) * x7 (ix2 0 q) + x8 (ix2 0 q))) * x9 (ix2 j q)) + x10 (ix2 0 j))
          * x11 (ix2 0 j) + x12 (ix2 0 j) := by
  simp only [k0_pay3]
  show (matmul dot_S1024x768_S768x768_S1024x768_1_0_0_1_n_n none _ _ _ (ix2 r j) + _) * _ + _ = _
  rw [mmT_apply dot_S1024x768_S768x768_S1024x768_1_0_0_1_n_n rfl rfl d2_l0 d2_l1 d2_r0 d2_r1, rowvec_apply, rowvec_apply, rowvec_apply]
  refine congrArg (fun t => (t + x10 (ix2 0 j)) * x11 (ix2 0 j) + x12 (ix2 0 j)) (Finset.sum_congr rfl fun q _ => ?_)
  rw [signOf_apply, clamp_apply]
  show sgn (clip ((v37 (ix2 r q) + _) * _ + _)) * _ = _
  rw [rowvec_apply, rowvec_apply, rowvec_apply]

/-- The last payload — the third layer's clamp, the read-out, and the logarithm of the softmax — at `(r, c)`, from
    the second payload's values. -/
theorem pay1_apply (v75 : FVec Ideal S1024x768 .f32) (x13 : Vec Ideal S10x768 .bf16) (x14 : Vec Ideal S1x10 .f32)
    (r : Fin 1024) (c : Fin 10) :
    k0_pay1 v75 (Scalar.ofBits .f32 0x3F800000#32) (k0_pay4 (F := Ideal)) x13 x14 (ix2 r c)
      = lsm (fun c' => (∑ q : Fin 768, clip (v75 (ix2 r q)) * x13 (ix2 c' q)) + x14 (ix2 0 c')) c := by
  simp only [k0_pay1]
  refine (lsm_vec_apply _ _ _ _ _ _ r c).trans ?_
  refine congrArg (fun l => lsm l c) (funext fun c' => ?_)
  show matmul dot_S1024x768_S768x10_S1024x10_1_0_0_1_n_n none _ _ _ (ix2 r c') + _ = _
  rw [mmT_apply dot_S1024x768_S768x10_S1024x10_1_0_0_1_n_n rfl rfl d4_l0 d4_l1 d4_r0 d4_r1, rowvec_apply]
  rfl

/-! ## The body's result at an entry -/

/-- Entry `(r, c)` of what the body stores is the folded network on row `r` of the input block. -/
theorem body_apply (x0 : Vec Ideal S1024x784 .f32) (x1 : Vec Ideal S768x784 .bf16) (x2 x3 x4 : Vec Ideal S1x768 .f32)
    (x5 : Vec Ideal S768x768 .bf16) (x6 x7 x8 : Vec Ideal S1x768 .f32) (x9 : Vec Ideal S768x768 .bf16)
    (x10 x11 x12 : Vec Ideal S1x768 .f32) (x13 : Vec Ideal S10x768 .bf16) (x14 : Vec Ideal S1x10 .f32) (r : Fin 1024) (c : Fin 10) :
    k0_pay1 (k0_pay3 (k0_pay2 x0 x1 x2 x3 x4 x5) x6 x7 x8 x9 x10 x11 x12) (Scalar.ofBits .f32 0x3F800000#32) (k0_pay4 (F := Ideal)) x13 x14 (ix2 r c)
      = rowK (fun j q => x1 (ix2 j q)) (fun j => x2 (ix2 0 j)) (fun j => x3 (ix2 0 j)) (fun j => x4 (ix2 0 j))
          (fun j q => x5 (ix2 j q)) (fun j => x6 (ix2 0 j)) (fun j => x7 (ix2 0 j)) (fun j => x8 (ix2 0 j))
          (fun j q => x9 (ix2 j q)) (fun j => x10 (ix2 0 j)) (fun j => x11 (ix2 0 j)) (fun j => x12 (ix2 0 j))
          (fun c q => x13 (ix2 c q)) (fun c => x14 (ix2 0 c)) (fun q => x0 (ix2 r q)) c := by
  rw [pay1_apply]
  unfold rowK
  refine congrArg (fun l => lsm l c) (funext fun c' => ?_)
  show _ = (∑ q : Fin 768, hidK _ _ _ _ _ q * x13 (ix2 c' q)) + x14 (ix2 0 c')
  refine congrArg (fun t => t + x14 (ix2 0 c')) (Finset.sum_congr rfl fun q _ => congrArg (fun t => t * x13 (ix2 c' q)) ?_)
  rw [pay3_apply]
  show _ = clip (((∑ p : Fin 768, sgn (hidK _ _ _ _ _ p) * x9 (ix2 q p)) + x10 (ix2 0 q)) * x11 (ix2 0 q) + x12 (ix2 0 q))
  refine congrArg (fun t => clip ((t + x10 (ix2 0 q)) * x11 (ix2 0 q) + x12 (ix2 0 q)))
    (Finset.sum_congr rfl fun p _ => congrArg (fun t => sgn (clip t) * x9 (ix2 q p)) ?_)
  rw [pay2_apply]
  rfl

end Cert.KerPay

end
-- ==== Proof.KerHost.lean ====
/-
  What the region is handed.

  Before its one region the folded program prepares, from the twenty-one argument arrays, the arrays the region's
  windows read: each hidden layer's weight matrix binarised (`1` where the entry is `≥ 0`, `-1` elsewhere), each
  bias as one row, each normalisation folded into a scale `γ · (v + ε)^(-1/2)` and a shift `β - μ · (γ · (v + ε)^(-1/2))`,
  each as one row, and the read-out's weights and bias. Over the extended reals a narrowing of precision is the
  identity, so the prepared arrays are exactly these functions of the arguments.

  Each theorem reads one prepared array at an index. First the array is written as the composition of the operations
  that produced it, applied to the arguments as launched; then that composition is read at the index, operation by
  operation: a broadcast scalar is its value at every index, a vector given a leading unit axis reads at `(0, j)` its
  entry `j`, and the arithmetic, the comparison and the select are entrywise.
-/
import proofs.«141077_j45140106281104_2_alg».proof.Proof.Gen.KernelIdeal.Frame
import proofs.«141077_j45140106281104_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KerHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The operations read at an index -/

/-- A scalar constant broadcast to any shape reads, at every index, the constant's value. -/
theorem bcast_const_apply {s : Shape} (h : S_.BroadcastsInDim s (![] : Fin 0 → Fin s.rank)) (b : BitVec 32) (i : s.Idx) :
    broadcastInDim s ![] h (constant (F := Ideal) S_ .f32 b) i = Ideal.ofBits .f32 b :=
  broadcastInDim_apply _ h _ i (fun a => a.elim0) (fun a => a.elim0)

/-- Binarising: the select on "`x ≥ 0`" between the broadcast words of `1` and `-1`, then the (exact) narrowing,
    reads at an index the sign of the operand there. -/
theorem sign_apply {s : Shape} (h : S_.BroadcastsInDim s (![] : Fin 0 → Fin s.rank)) (hb : FTy.bits .bf16 < FTy.bits .f32)
    (x : s.Idx → EReal) (i : s.Idx) :
    (truncf .bf16 (select (cmpf .oge (x : FVec Ideal s .f32) (broadcastInDim s ![] h (constant (F := Ideal) S_ .f32 0x00000000#32)))
        (broadcastInDim s ![] h (constant (F := Ideal) S_ .f32 0x3F800000#32))
        (broadcastInDim s ![] h (constant (F := Ideal) S_ .f32 0xBF800000#32))) hb : FVec Ideal s .bf16) i
      = Cert.Mlp.sgn (x i) := by
  rw [← Cert.Mlp.select_ge_eq_sgn]
  show Scalar.select (Ideal.cmp .oge (x i) (broadcastInDim s ![] h (constant (F := Ideal) S_ .f32 0x00000000#32) i))
      (broadcastInDim s ![] h (constant (F := Ideal) S_ .f32 0x3F800000#32) i)
      (broadcastInDim s ![] h (constant (F := Ideal) S_ .f32 0xBF800000#32) i) = _
  rw [bcast_const_apply, bcast_const_apply, bcast_const_apply]

/-- The folded scale `γ · (v + ε)^(-1/2)`, computed on vectors and given a leading unit axis, read at `(0, j)`. -/
theorem scale_apply (g v : S768.Idx → EReal) (j : Fin 768) :
    shapeCast S1x768 (mulf (g : FVec Ideal S768 .f32)
        (Host.rsqrt (addf (v : FVec Ideal S768 .f32) (broadcastInDim S768 ![] bcast_S_S768 (constant (F := Ideal) S_ .f32 0x3727C5AC#32)))))
      shapeCasts_S768_S1x768 (ix2 (0 : Fin 1) j) = Cert.Mlp.scale (g (ix1 j)) (v (ix1 j)) := by
  rw [shapeCast_a_1a_apply _ shapeCasts_S768_S1x768 0 j]
  show g (ix1 j) * Ideal.rsqrt (v (ix1 j) + broadcastInDim S768 ![] bcast_S_S768 (constant (F := Ideal) S_ .f32 0x3727C5AC#32) (ix1 j)) = _
  rw [bcast_const_apply]
  rfl

/-- The folded shift `β - μ · (γ · (v + ε)^(-1/2))`, likewise. -/
theorem shift_apply (be mu g v : S768.Idx → EReal) (j : Fin 768) :
    shapeCast S1x768 (subf (be : FVec Ideal S768 .f32) (mulf (mu : FVec Ideal S768 .f32) (mulf (g : FVec Ideal S768 .f32)
        (Host.rsqrt (addf (v : FVec Ideal S768 .f32) (broadcastInDim S768 ![] bcast_S_S768 (constant (F := Ideal) S_ .f32 0x3727C5AC#32)))))))
      shapeCasts_S768_S1x768 (ix2 (0 : Fin 1) j)
      = be (ix1 j) - mu (ix1 j) * Cert.Mlp.scale (g (ix1 j)) (v (ix1 j)) := by
  rw [shapeCast_a_1a_apply _ shapeCasts_S768_S1x768 0 j]
  show be (ix1 j) - mu (ix1 j) * (g (ix1 j) * Ideal.rsqrt (v (ix1 j) + broadcastInDim S768 ![] bcast_S_S768 (constant (F := Ideal) S_ .f32 0x3727C5AC#32) (ix1 j))) = _
  rw [bcast_const_apply]
  rfl

/-! ## The first hidden layer's windows -/

/-- The first layer's weights arrive binarised. -/
theorem w1_idx (i : S768x784.Idx) :
    (V m c main_v3 : S768x784.Idx → EReal) i = Cert.Mlp.sgn ((m ((c : Thread nD τ).loc main_arg1) : S768x784.Idx → EReal) (i) : EReal) := by
  have e : (V m c main_v3 : S768x784.Idx → EReal)
      = truncf .bf16 (select (cmpf .oge ((m ((c : Thread nD τ).loc main_arg1) : S768x784.Idx → EReal) : FVec Ideal S768x784 .f32)
            (broadcastInDim S768x784 ![] bcast_S_S768x784 (constant (F := Ideal) S_ .f32 0x00000000#32)))
          (broadcastInDim S768x784 ![] bcast_S_S768x784 (constant (F := Ideal) S_ .f32 0x3F800000#32))
          (broadcastInDim S768x784 ![] bcast_S_S768x784 (constant (F := Ideal) S_ .f32 0xBF800000#32))) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact sign_apply bcast_S_S768x784 bitsLt_bf16_f32 _ i

theorem w1 (j : Fin 768) (q : Fin 784) :
    (V m c main_v3 : S768x784.Idx → EReal) (ix2 j q) = Cert.Mlp.sgn ((m ((c : Thread nD τ).loc main_arg1) : S768x784.Idx → EReal) (ix2 j q) : EReal) :=
  w1_idx m c (ix2 j q)

/-- The first layer's bias arrives as launched, as one row. -/
theorem w2 (j : Fin 768) :
    (V m c main_v31 : S1x768.Idx → EReal) (ix2 (0 : Fin 1) j) = ((m ((c : Thread nD τ).loc main_arg2) : S768.Idx → EReal) (ix1 j) : EReal) := by
  have e : (V m c main_v31 : S1x768.Idx → EReal)
      = shapeCast S1x768 ((m ((c : Thread nD τ).loc main_arg2) : S768.Idx → EReal)) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shapeCast_a_1a_apply _ shapeCasts_S768_S1x768 0 j

/-- The first normalisation's scale. -/
theorem w3 (j : Fin 768) :
    (V m c main_v35 : S1x768.Idx → EReal) (ix2 (0 : Fin 1) j)
      = Cert.Mlp.scale ((m ((c : Thread nD τ).loc main_arg9) : S768.Idx → EReal) (ix1 j) : EReal) ((m ((c : Thread nD τ).loc main_arg12) : S768.Idx → EReal) (ix1 j) : EReal) := by
  have e : (V m c main_v35 : S1x768.Idx → EReal)
      = shapeCast S1x768 (mulf ((m ((c : Thread nD τ).loc main_arg9) : S768.Idx → EReal) : FVec Ideal S768 .f32)
          (Host.rsqrt (addf ((m ((c : Thread nD τ).loc main_arg12) : S768.Idx → EReal) : FVec Ideal S768 .f32)
            (broadcastInDim S768 ![] bcast_S_S768 (constant (F := Ideal) S_ .f32 0x3727C5AC#32))))) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact scale_apply _ _ j

/-- The first normalisation's shift. -/
theorem w4 (j : Fin 768) :
    (V m c main_v36 : S1x768.Idx → EReal) (ix2 (0 : Fin 1) j)
      = @HSub.hSub EReal EReal EReal _ ((m ((c : Thread nD τ).loc main_arg10) : S768.Idx → EReal) (ix1 j))
          (@HMul.hMul EReal EReal EReal _ ((m ((c : Thread nD τ).loc main_arg11) : S768.Idx → EReal) (ix1 j))
            (Cert.Mlp.scale ((m ((c : Thread nD τ).loc main_arg9) : S768.Idx → EReal) (ix1 j)) ((m ((c : Thread nD τ).loc main_arg12) : S768.Idx → EReal) (ix1 j)))) := by
  have e : (V m c main_v36 : S1x768.Idx → EReal)
      = shapeCast S1x768 (subf ((m ((c : Thread nD τ).loc main_arg10) : S768.Idx → EReal) : FVec Ideal S768 .f32) (mulf ((m ((c : Thread nD τ).loc main_arg11) : S768.Idx → EReal) : FVec Ideal S768 .f32)
        (mulf ((m ((c : Thread nD τ).loc main_arg9) : S768.Idx → EReal) : FVec Ideal S768 .f32)
          (Host.rsqrt (addf ((m ((c : Thread nD τ).loc main_arg12) : S768.Idx → EReal) : FVec Ideal S768 .f32)
            (broadcastInDim S768 ![] bcast_S_S768 (constant (F := Ideal) S_ .f32 0x3727C5AC#32))))))) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shift_apply _ _ _ _ j

/-! ## The second hidden layer's windows -/

/-- The second layer's weights arrive binarised. -/
theorem w5_idx (i : S768x768.Idx) :
    (V m c main_v7 : S768x768.Idx → EReal) i = Cert.Mlp.sgn ((m ((c : Thread nD τ).loc main_arg3) : S768x768.Idx → EReal) (i) : EReal) := by
  have e : (V m c main_v7 : S768x768.Idx → EReal)
      = truncf .bf16 (select (cmpf .oge ((m ((c : Thread nD τ).loc main_arg3) : S768x768.Idx → EReal) : FVec Ideal S768x768 .f32)
            (broadcastInDim S768x768 ![] bcast_S_S768x768 (constant (F := Ideal) S_ .f32 0x00000000#32)))
          (broadcastInDim S768x768 ![] bcast_S_S768x768 (constant (F := Ideal) S_ .f32 0x3F800000#32))
          (broadcastInDim S768x768 ![] bcast_S_S768x768 (constant (F := Ideal) S_ .f32 0xBF800000#32))) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact sign_apply bcast_S_S768x768 bitsLt_bf16_f32 _ i

theorem w5 (j q : Fin 768) :
    (V m c main_v7 : S768x768.Idx → EReal) (ix2 j q) = Cert.Mlp.sgn ((m ((c : Thread nD τ).loc main_arg3) : S768x768.Idx → EReal) (ix2 j q) : EReal) :=
  w5_idx m c (ix2 j q)

/-- The second layer's bias arrives as launched, as one row. -/
theorem w6 (j : Fin 768) :
    (V m c main_v32 : S1x768.Idx → EReal) (ix2 (0 : Fin 1) j) = ((m ((c : Thread nD τ).loc main_arg4) : S768.Idx → EReal) (ix1 j) : EReal) := by
  have e : (V m c main_v32 : S1x768.Idx → EReal)
      = shapeCast S1x768 ((m ((c : Thread nD τ).loc main_arg4) : S768.Idx → EReal)) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shapeCast_a_1a_apply _ shapeCasts_S768_S1x768 0 j

/-- The second normalisation's scale. -/
theorem w7 (j : Fin 768) :
    (V m c main_v37 : S1x768.Idx → EReal) (ix2 (0 : Fin 1) j)
      = Cert.Mlp.scale ((m ((c : Thread nD τ).loc main_arg13) : S768.Idx → EReal) (ix1 j) : EReal) ((m ((c : Thread nD τ).loc main_arg16) : S768.Idx → EReal) (ix1 j) : EReal) := by
  have e : (V m c main_v37 : S1x768.Idx → EReal)
      = shapeCast S1x768 (mulf ((m ((c : Thread nD τ).loc main_arg13) : S768.Idx → EReal) : FVec Ideal S768 .f32)
          (Host.rsqrt (addf ((m ((c : Thread nD τ).loc main_arg16) : S768.Idx → EReal) : FVec Ideal S768 .f32)
            (broadcastInDim S768 ![] bcast_S_S768 (constant (F := Ideal) S_ .f32 0x3727C5AC#32))))) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact scale_apply _ _ j

/-- The second normalisation's shift. -/
theorem w8 (j : Fin 768) :
    (V m c main_v38 : S1x768.Idx → EReal) (ix2 (0 : Fin 1) j)
      = @HSub.hSub EReal EReal EReal _ ((m ((c : Thread nD τ).loc main_arg14) : S768.Idx → EReal) (ix1 j))
          (@HMul.hMul EReal EReal EReal _ ((m ((c : Thread nD τ).loc main_arg15) : S768.Idx → EReal) (ix1 j))
            (Cert.Mlp.scale ((m ((c : Thread nD τ).loc main_arg13) : S768.Idx → EReal) (ix1 j)) ((m ((c : Thread nD τ).loc main_arg16) : S768.Idx → EReal) (ix1 j)))) := by
  have e : (V m c main_v38 : S1x768.Idx → EReal)
      = shapeCast S1x768 (subf ((m ((c : Thread nD τ).loc main_arg14) : S768.Idx → EReal) : FVec Ideal S768 .f32) (mulf ((m ((c : Thread nD τ).loc main_arg15) : S768.Idx → EReal) : FVec Ideal S768 .f32)
        (mulf ((m ((c : Thread nD τ).loc main_arg13) : S768.Idx → EReal) : FVec Ideal S768 .f32)
          (Host.rsqrt (addf ((m ((c : Thread nD τ).loc main_arg16) : S768.Idx → EReal) : FVec Ideal S768 .f32)
            (broadcastInDim S768 ![] bcast_S_S768 (constant (F := Ideal) S_ .f32 0x3727C5AC#32))))))) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shift_apply _ _ _ _ j

/-! ## The third hidden layer's windows -/

/-- The third layer's weights arrive binarised. -/
theorem w9_idx (i : S768x768.Idx) :
    (V m c main_v11 : S768x768.Idx → EReal) i = Cert.Mlp.sgn ((m ((c : Thread nD τ).loc main_arg5) : S768x768.Idx → EReal) (i) : EReal) := by
  have e : (V m c main_v11 : S768x768.Idx → EReal)
      = truncf .bf16 (select (cmpf .oge ((m ((c : Thread nD τ).loc main_arg5) : S768x768.Idx → EReal) : FVec Ideal S768x768 .f32)
            (broadcastInDim S768x768 ![] bcast_S_S768x768 (constant (F := Ideal) S_ .f32 0x00000000#32)))
          (broadcastInDim S768x768 ![] bcast_S_S768x768 (constant (F := Ideal) S_ .f32 0x3F800000#32))
          (broadcastInDim S768x768 ![] bcast_S_S768x768 (constant (F := Ideal) S_ .f32 0xBF800000#32))) bitsLt_bf16_f32 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact sign_apply bcast_S_S768x768 bitsLt_bf16_f32 _ i

theorem w9 (j q : Fin 768) :
    (V m c main_v11 : S768x768.Idx → EReal) (ix2 j q) = Cert.Mlp.sgn ((m ((c : Thread nD τ).loc main_arg5) : S768x768.Idx → EReal) (ix2 j q) : EReal) :=
  w9_idx m c (ix2 j q)

/-- The third layer's bias arrives as launched, as one row. -/
theorem w10 (j : Fin 768) :
    (V m c main_v33 : S1x768.Idx → EReal) (ix2 (0 : Fin 1) j) = ((m ((c : Thread nD τ).loc main_arg6) : S768.Idx → EReal) (ix1 j) : EReal) := by
  have e : (V m c main_v33 : S1x768.Idx → EReal)
      = shapeCast S1x768 ((m ((c : Thread nD τ).loc main_arg6) : S768.Idx → EReal)) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shapeCast_a_1a_apply _ shapeCasts_S768_S1x768 0 j

/-- The third normalisation's scale. -/
theorem w11 (j : Fin 768) :
    (V m c main_v39 : S1x768.Idx → EReal) (ix2 (0 : Fin 1) j)
      = Cert.Mlp.scale ((m ((c : Thread nD τ).loc main_arg17) : S768.Idx → EReal) (ix1 j) : EReal) ((m ((c : Thread nD τ).loc main_arg20) : S768.Idx → EReal) (ix1 j) : EReal) := by
  have e : (V m c main_v39 : S1x768.Idx → EReal)
      = shapeCast S1x768 (mulf ((m ((c : Thread nD τ).loc main_arg17) : S768.Idx → EReal) : FVec Ideal S768 .f32)
          (Host.rsqrt (addf ((m ((c : Thread nD τ).loc main_arg20) : S768.Idx → EReal) : FVec Ideal S768 .f32)
            (broadcastInDim S768 ![] bcast_S_S768 (constant (F := Ideal) S_ .f32 0x3727C5AC#32))))) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact scale_apply _ _ j

/-- The third normalisation's shift. -/
theorem w12 (j : Fin 768) :
    (V m c main_v40 : S1x768.Idx → EReal) (ix2 (0 : Fin 1) j)
      = @HSub.hSub EReal EReal EReal _ ((m ((c : Thread nD τ).loc main_arg18) : S768.Idx → EReal) (ix1 j))
          (@HMul.hMul EReal EReal EReal _ ((m ((c : Thread nD τ).loc main_arg19) : S768.Idx → EReal) (ix1 j))
            (Cert.Mlp.scale ((m ((c : Thread nD τ).loc main_arg17) : S768.Idx → EReal) (ix1 j)) ((m ((c : Thread nD τ).loc main_arg20) : S768.Idx → EReal) (ix1 j)))) := by
  have e : (V m c main_v40 : S1x768.Idx → EReal)
      = shapeCast S1x768 (subf ((m ((c : Thread nD τ).loc main_arg18) : S768.Idx → EReal) : FVec Ideal S768 .f32) (mulf ((m ((c : Thread nD τ).loc main_arg19) : S768.Idx → EReal) : FVec Ideal S768 .f32)
        (mulf ((m ((c : Thread nD τ).loc main_arg17) : S768.Idx → EReal) : FVec Ideal S768 .f32)
          (Host.rsqrt (addf ((m ((c : Thread nD τ).loc main_arg20) : S768.Idx → EReal) : FVec Ideal S768 .f32)
            (broadcastInDim S768 ![] bcast_S_S768 (constant (F := Ideal) S_ .f32 0x3727C5AC#32))))))) shapeCasts_S768_S1x768 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shift_apply _ _ _ _ j

/-! ## The read-out's windows -/

/-- The read-out's weights arrive as launched: the narrowing is exact. -/
theorem w13_idx (i : S10x768.Idx) :
    (V m c main_v12 : S10x768.Idx → EReal) i = (m ((c : Thread nD τ).loc main_arg7) : S10x768.Idx → EReal) i := by
  have e : (V m c main_v12 : S10x768.Idx → EReal)
      = (truncf .bf16 ((m ((c : Thread nD τ).loc main_arg7) : S10x768.Idx → EReal) : FVec Ideal S10x768 .f32) bitsLt_bf16_f32 : FVec Ideal S10x768 .bf16) := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
  rw [e]
  rfl

theorem w13 (cc : Fin 10) (q : Fin 768) :
    (V m c main_v12 : S10x768.Idx → EReal) (ix2 cc q) = (m ((c : Thread nD τ).loc main_arg7) : S10x768.Idx → EReal) (ix2 cc q) :=
  w13_idx m c (ix2 cc q)

/-- The read-out's bias arrives as launched, as one row. -/
theorem w14 (cc : Fin 10) :
    (V m c main_v34 : S1x10.Idx → EReal) (ix2 (0 : Fin 1) cc) = ((m ((c : Thread nD τ).loc main_arg8) : S10.Idx → EReal) (ix1 cc) : EReal) := by
  have e : (V m c main_v34 : S1x10.Idx → EReal)
      = shapeCast S1x10 ((m ((c : Thread nD τ).loc main_arg8) : S10.Idx → EReal)) shapeCasts_S10_S1x10 := by
    dsimp only [Gen.V]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results_simp
    rfl
  rw [e]
  exact shapeCast_a_1a_apply _ shapeCasts_S10_S1x10 0 cc

end Cert.KerHost

end
-- ==== Proof.KerBlocks.lean ====
/-
  From the blocks the grid points write to the whole result array.

  The call runs sixteen grid points; point `t` stages rows `1024·t … 1024·t + 1023` of the input, the whole of every
  weight, bias, scale and shift array (their block index is `(0, 0)` at every point), and writes back rows
  `1024·t … 1024·t + 1023` of the result. Entry `(r, c)` of what point `t` writes is the body's arithmetic on row `r` of
  its input block, that is, on row `1024·t + r` of the input array; the weight blocks hold the signs of the weight
  arrays, the scale and shift blocks the folded normalisation of the statistics arrays, as the host operations before
  the call leave them. So the block is a block of `Cert.Mlp.G` of the argument arrays — in the folded arrangement, which
  is the written one once every argument is a real number and the variances are non-negative. The sixteen blocks tile
  the `[16384, 10]` result (row `i` lies in block `i / 1024`), so the array ends holding `G` everywhere.
-/
import proofs.«141077_j45140106281104_2_alg».proof.Proof.Gen.KernelIdeal.Value
import proofs.«141077_j45140106281104_2_alg».proof.Proof.KerPay
import proofs.«141077_j45140106281104_2_alg».proof.Proof.KerHost
import proofs.«141077_j45140106281104_2_alg».proof.Proof.InputDomain
import Idealize.ShloMosaic.Lib.Pipeline.Value
import Idealize.ShloMosaic.Lib.ValueIdx

noncomputable section

open scoped BigOperators

namespace Cert.KerBlocks

open Idealize.ShloMosaic Idealize.ShloMosaic.TcCoe Idealize.SL.Sem Idealize.ShloMosaic.ValueIdx Cert.KernelIdeal Cert.KernelIdeal.Gen Cert.Mlp
open Idealize.ShloMosaic.Pipeline (Dat)

variable (m : (ℓ : Loc nD τ sig) → Buf (Elt Ideal) ℓ) (ρ : Dev nD → PrngReg)

/-- The stores and loads of the body are at offset zero of their buffers. -/
theorem hz : (![0, 0] : Fin 2 → Nat) = fun _ => 0 := funext fun a => by fin_cases a <;> rfl

/-- The index maps, decided over the sixteen grid points: the input and the result move together along the rows, one
    block per point; every other window stays at block `(0, 0)`. -/
theorem idx_facts : ∀ t : Fin cfg0.N,
    win0_15.index t (0 : Fin 2) = t.val ∧ win0_15.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Row `r` of point `t`'s block is row `1024·t + r` of the array. -/
def arow (t : Fin cfg0.N) (r : Fin 1024) : Fin 16384 :=
  ⟨t.val * 1024 + r.val, by have := t.isLt; have := r.isLt; show _ < 16384; have : t.val < 16 := t.isLt; omega⟩

/-! ## Where each window's block sits in its array -/

theorem emb0 (t : Fin cfg0.N) (r : Fin 1024) (q : Fin 784) : ((cfg0.win 0).blk t).view.emb (ix2 r q) = ix2 (arow t r) q := by
  have h := idx_facts t
  funext a; apply Fin.ext
  match a with
  | ⟨0, _⟩ => show win0_0.index t (0 : Fin 2) * 1024 + 1 * r.val = t.val * 1024 + r.val; omega
  | ⟨1, _⟩ => show win0_0.index t (1 : Fin 2) * 784 + 1 * q.val = q.val; omega

theorem emb15 (t : Fin cfg0.N) (r : Fin 1024) (cc : Fin 10) : ((cfg0.win 15).blk t).view.emb (ix2 r cc) = ix2 (arow t r) cc := by
  have h := idx_facts t
  funext a; apply Fin.ext
  match a with
  | ⟨0, _⟩ => show win0_15.index t (0 : Fin 2) * 1024 + 1 * r.val = t.val * 1024 + r.val; omega
  | ⟨1, _⟩ => show win0_15.index t (1 : Fin 2) * 10 + 1 * cc.val = cc.val; omega

theorem emb1 (t : Fin cfg0.N) (p : Fin 768) (q : Fin 784) : ((cfg0.win 1).blk t).view.emb (ix2 p q) = ix2 p q := by
  have h := idx_facts t
  funext a; apply Fin.ext
  match a with
  | ⟨0, _⟩ => show win0_1.index t (0 : Fin 2) * 768 + 1 * p.val = p.val; omega
  | ⟨1, _⟩ => show win0_1.index t (1 : Fin 2) * 784 + 1 * q.val = q.val; omega

theorem emb2 (t : Fin cfg0.N) (p : Fin 1) (q : Fin 768) : ((cfg0.win 2).blk t).view.emb (ix2 p q) = ix2 p q := by
  have h := idx_facts t
  funext a; apply Fin.ext
  match a with
  | ⟨0, _⟩ => show win0_2.index t (0 : Fin 2) * 1 + 1 * p.val = p.val; omega
  | ⟨1, _⟩ => show win0_2.index t (1 : Fin 2) * 768 + 1 * q.val = q.val; omega

theorem emb3 (t : Fin cfg0.N) (p : Fin 1) (q : Fin 768) : ((cfg0.win 3).blk t).view.emb (ix2 p q) = ix2 p q := by
  have h := idx_facts t
  funext a; apply Fin.ext
  match a with
  | ⟨0, _⟩ => show win0_3.index t (0 : Fin 2) * 1 + 1 * p.val = p.val; omega
  | ⟨1, _⟩ => show win0_3.index t (1 : Fin 2) * 768 + 1 * q.val = q.val; omega

theorem emb4 (t : Fin cfg0.N) (p : Fin 1) (q : Fin 768) : ((cfg0.win 4).blk t).view.emb (ix2 p q) = ix2 p q := by
  have h := idx_facts t
  funext a; apply Fin.ext
  match a with
  | ⟨0, _⟩ => show win0_4.index t (0 : Fin 2) * 1 + 1 * p.val = p.val; omega
  | ⟨1, _⟩ => show win0_4.index t (1 : Fin 2) * 768 + 1 * q.val = q.val; omega

theorem emb5 (t : Fin cfg0.N) (p : Fin 768) (q : Fin 768) : ((cfg0.win 5).blk t).view.emb (ix2 p q) = ix2 p q := by
  have h := idx_facts t
  funext a; apply Fin.ext
  match a with
  | ⟨0, _⟩ => show win0_5.index t (0 : Fin 2) * 768 + 1 * p.val = p.val; omega
  | ⟨1, _⟩ => show win0_5.index t (1 : Fin 2) * 768 + 1 * q.val = q.val; omega

theorem emb6 (t : Fin cfg0.N) (p : Fin 1) (q : Fin 768) : ((cfg0.win 6).blk t).view.emb (ix2 p q) = ix2 p q := by
  have h := idx_facts t
  funext a; apply Fin.ext
  match a with
  | ⟨0, _⟩ => show win0_6.index t (0 : Fin 2) * 1 + 1 * p.val = p.val; omega
  | ⟨1, _⟩ => show win0_6.index t (1 : Fin 2) * 768 + 1 * q.val = q.val; omega

theorem emb7 (t : Fin cfg0.N) (p : Fin 1) (q : Fin 768) : ((cfg0.win 7).blk t).view.emb (ix2 p q) = ix2 p q := by
  have h := idx_facts t
  funext a; apply Fin.ext
  match a with
  | ⟨0, _⟩ => show win0_7.index t (0 : Fin 2) * 1 + 1 * p.val = p.val; omega
  | ⟨1, _⟩ => show win0_7.index t (1 : Fin 2) * 768 + 1 * q.val = q.val; omega

theorem emb8 (t : Fin cfg0.N) (p : Fin 1) (q : Fin 768) : ((cfg0.win 8).blk t).view.emb (ix2 p q) = ix2 p q := by
  have h := idx_facts t
  funext a; apply Fin.ext
  match a with
  | ⟨0, _⟩ => show win0_8.index t (0 : Fin 2) * 1 + 1 * p.val = p.val; omega
  | ⟨1, _⟩ => show win0_8.index t (1 : Fin 2) * 768 + 1 * q.val = q.val; omega

theorem emb9 (t : Fin cfg0.N) (p : Fin 768) (q : Fin 768) : ((cfg0.win 9).blk t).view.emb (ix2 p q) = ix2 p q := by
  have h := idx_facts t
  funext a; apply Fin.ext
  match a with
  | ⟨0, _⟩ => show win0_9.index t (0 : Fin 2) * 768 + 1 * p.val = p.val; omega
  | ⟨1, _⟩ => show win0_9.index t (1 : Fin 2) * 768 + 1 * q.val = q.val; omega

theorem emb10 (t : Fin cfg0.N) (p : Fin 1) (q : Fin 768) : ((cfg0.win 10).blk t).view.emb (ix2 p q) = ix2 p q := by
  have h := idx_facts t
  funext a; apply Fin.ext
  match a with
  | ⟨0, _⟩ => show win0_10.index t (0 : Fin 2) * 1 + 1 * p.val = p.val; omega
  | ⟨1, _⟩ => show win0_10.index t (1 : Fin 2) * 768 + 1 * q.val = q.val; omega

theorem emb11 (t : Fin cfg0.N) (p : Fin 1) (q : Fin 768) : ((cfg0.win 11).blk t).view.emb (ix2 p q) = ix2 p q := by
  have h := idx_facts t
  funext a; apply Fin.ext
  match a with
  | ⟨0, _⟩ => show win0_11.index t (0 : Fin 2) * 1 + 1 * p.val = p.val; omega
  | ⟨1, _⟩ => show win0_11.index t (1 : Fin 2) * 768 + 1 * q.val = q.val; omega

theorem emb12 (t : Fin cfg0.N) (p : Fin 1) (q : Fin 768) : ((cfg0.win 12).blk t).view.emb (ix2 p q) = ix2 p q := by
  have h := idx_facts t
  funext a; apply Fin.ext
  match a with
  | ⟨0, _⟩ => show win0_12.index t (0 : Fin 2) * 1 + 1 * p.val = p.val; omega
  | ⟨1, _⟩ => show win0_12.index t (1 : Fin 2) * 768 + 1 * q.val = q.val; omega

theorem emb13 (t : Fin cfg0.N) (p : Fin 10) (q : Fin 768) : ((cfg0.win 13).blk t).view.emb (ix2 p q) = ix2 p q := by
  have h := idx_facts t
  funext a; apply Fin.ext
  match a with
  | ⟨0, _⟩ => show win0_13.index t (0 : Fin 2) * 10 + 1 * p.val = p.val; omega
  | ⟨1, _⟩ => show win0_13.index t (1 : Fin 2) * 768 + 1 * q.val = q.val; omega

theorem emb14 (t : Fin cfg0.N) (p : Fin 1) (q : Fin 10) : ((cfg0.win 14).blk t).view.emb (ix2 p q) = ix2 p q := by
  have h := idx_facts t
  funext a; apply Fin.ext
  match a with
  | ⟨0, _⟩ => show win0_14.index t (0 : Fin 2) * 1 + 1 * p.val = p.val; omega
  | ⟨1, _⟩ => show win0_14.index t (1 : Fin 2) * 10 + 1 * q.val = q.val; omega

/-! ## What each staged block holds -/

/-- A feature's folded shift `β - μ · (γ · (v + ε)^(-1/2))`. -/
def shift (be mu g v : EReal) : EReal := be - mu * scale g v

theorem blk0 (c : Dev nD) (t : Fin cfg0.N) (r : Fin 1024) (q : Fin 784) :
    (iblk m c 0 t (ix2 r q) : EReal) = (m ((c : Thread nD τ).loc main_arg0)) (ix2 (arow t r) q) := by
  show (V m c main_arg0 (((cfg0.win 0).blk t).view.emb (ix2 r q)) : EReal) = _
  rw [emb0, V_main_arg0]

theorem blk1 (c : Dev nD) (t : Fin cfg0.N) (j : Fin 768) (q : Fin 784) : (iblk m c 1 t (ix2 j q) : EReal) = sgn ((m ((c : Thread nD τ).loc main_arg1)) (ix2 j q)) := by
  show (V m c main_v3 (((cfg0.win 1).blk t).view.emb (ix2 j q)) : EReal) = _
  rw [emb1]
  exact Cert.KerHost.w1 m c j q

theorem blk2 (c : Dev nD) (t : Fin cfg0.N) (j : Fin 768) : (iblk m c 2 t (ix2 (0 : Fin 1) j) : EReal) = (m ((c : Thread nD τ).loc main_arg2)) (ix1 j) := by
  show (V m c main_v31 (((cfg0.win 2).blk t).view.emb (ix2 (0 : Fin 1) j)) : EReal) = _
  rw [emb2]
  exact Cert.KerHost.w2 m c j

theorem blk3 (c : Dev nD) (t : Fin cfg0.N) (j : Fin 768) : (iblk m c 3 t (ix2 (0 : Fin 1) j) : EReal) = scale ((m ((c : Thread nD τ).loc main_arg9)) (ix1 j)) ((m ((c : Thread nD τ).loc main_arg12)) (ix1 j)) := by
  show (V m c main_v35 (((cfg0.win 3).blk t).view.emb (ix2 (0 : Fin 1) j)) : EReal) = _
  rw [emb3]
  exact Cert.KerHost.w3 m c j

theorem blk4 (c : Dev nD) (t : Fin cfg0.N) (j : Fin 768) : (iblk m c 4 t (ix2 (0 : Fin 1) j) : EReal) = shift ((m ((c : Thread nD τ).loc main_arg10)) (ix1 j)) ((m ((c : Thread nD τ).loc main_arg11)) (ix1 j)) ((m ((c : Thread nD τ).loc main_arg9)) (ix1 j)) ((m ((c : Thread nD τ).loc main_arg12)) (ix1 j)) := by
  show (V m c main_v36 (((cfg0.win 4).blk t).view.emb (ix2 (0 : Fin 1) j)) : EReal) = _
  rw [emb4]
  exact Cert.KerHost.w4 m c j

theorem blk5 (c : Dev nD) (t : Fin cfg0.N) (j q : Fin 768) : (iblk m c 5 t (ix2 j q) : EReal) = sgn ((m ((c : Thread nD τ).loc main_arg3)) (ix2 j q)) := by
  show (V m c main_v7 (((cfg0.win 5).blk t).view.emb (ix2 j q)) : EReal) = _
  rw [emb5]
  exact Cert.KerHost.w5 m c j q

theorem blk6 (c : Dev nD) (t : Fin cfg0.N) (j : Fin 768) : (iblk m c 6 t (ix2 (0 : Fin 1) j) : EReal) = (m ((c : Thread nD τ).loc main_arg4)) (ix1 j) := by
  show (V m c main_v32 (((cfg0.win 6).blk t).view.emb (ix2 (0 : Fin 1) j)) : EReal) = _
  rw [emb6]
  exact Cert.KerHost.w6 m c j

theorem blk7 (c : Dev nD) (t : Fin cfg0.N) (j : Fin 768) : (iblk m c 7 t (ix2 (0 : Fin 1) j) : EReal) = scale ((m ((c : Thread nD τ).loc main_arg13)) (ix1 j)) ((m ((c : Thread nD τ).loc main_arg16)) (ix1 j)) := by
  show (V m c main_v37 (((cfg0.win 7).blk t).view.emb (ix2 (0 : Fin 1) j)) : EReal) = _
  rw [emb7]
  exact Cert.KerHost.w7 m c j

theorem blk8 (c : Dev nD) (t : Fin cfg0.N) (j : Fin 768) : (iblk m c 8 t (ix2 (0 : Fin 1) j) : EReal) = shift ((m ((c : Thread nD τ).loc main_arg14)) (ix1 j)) ((m ((c : Thread nD τ).loc main_arg15)) (ix1 j)) ((m ((c : Thread nD τ).loc main_arg13)) (ix1 j)) ((m ((c : Thread nD τ).loc main_arg16)) (ix1 j)) := by
  show (V m c main_v38 (((cfg0.win 8).blk t).view.emb (ix2 (0 : Fin 1) j)) : EReal) = _
  rw [emb8]
  exact Cert.KerHost.w8 m c j

theorem blk9 (c : Dev nD) (t : Fin cfg0.N) (j q : Fin 768) : (iblk m c 9 t (ix2 j q) : EReal) = sgn ((m ((c : Thread nD τ).loc main_arg5)) (ix2 j q)) := by
  show (V m c main_v11 (((cfg0.win 9).blk t).view.emb (ix2 j q)) : EReal) = _
  rw [emb9]
  exact Cert.KerHost.w9 m c j q

theorem blk10 (c : Dev nD) (t : Fin cfg0.N) (j : Fin 768) : (iblk m c 10 t (ix2 (0 : Fin 1) j) : EReal) = (m ((c : Thread nD τ).loc main_arg6)) (ix1 j) := by
  show (V m c main_v33 (((cfg0.win 10).blk t).view.emb (ix2 (0 : Fin 1) j)) : EReal) = _
  rw [emb10]
  exact Cert.KerHost.w10 m c j

theorem blk11 (c : Dev nD) (t : Fin cfg0.N) (j : Fin 768) : (iblk m c 11 t (ix2 (0 : Fin 1) j) : EReal) = scale ((m ((c : Thread nD τ).loc main_arg17)) (ix1 j)) ((m ((c : Thread nD τ).loc main_arg20)) (ix1 j)) := by
  show (V m c main_v39 (((cfg0.win 11).blk t).view.emb (ix2 (0 : Fin 1) j)) : EReal) = _
  rw [emb11]
  exact Cert.KerHost.w11 m c j

theorem blk12 (c : Dev nD) (t : Fin cfg0.N) (j : Fin 768) : (iblk m c 12 t (ix2 (0 : Fin 1) j) : EReal) = shift ((m ((c : Thread nD τ).loc main_arg18)) (ix1 j)) ((m ((c : Thread nD τ).loc main_arg19)) (ix1 j)) ((m ((c : Thread nD τ).loc main_arg17)) (ix1 j)) ((m ((c : Thread nD τ).loc main_arg20)) (ix1 j)) := by
  show (V m c main_v40 (((cfg0.win 12).blk t).view.emb (ix2 (0 : Fin 1) j)) : EReal) = _
  rw [emb12]
  exact Cert.KerHost.w12 m c j

theorem blk13 (c : Dev nD) (t : Fin cfg0.N) (cc : Fin 10) (q : Fin 768) : (iblk m c 13 t (ix2 cc q) : EReal) = (m ((c : Thread nD τ).loc main_arg7)) (ix2 cc q) := by
  show (V m c main_v12 (((cfg0.win 13).blk t).view.emb (ix2 cc q)) : EReal) = _
  rw [emb13]
  exact Cert.KerHost.w13 m c cc q

theorem blk14 (c : Dev nD) (t : Fin cfg0.N) (cc : Fin 10) : (iblk m c 14 t (ix2 (0 : Fin 1) cc) : EReal) = (m ((c : Thread nD τ).loc main_arg8)) (ix1 cc) := by
  show (V m c main_v34 (((cfg0.win 14).blk t).view.emb (ix2 (0 : Fin 1) cc)) : EReal) = _
  rw [emb14]
  exact Cert.KerHost.w14 m c cc

/-! ## One entry of one block, over plain vectors -/

/-- Entry `(r, c)` of the body's result on fifteen blocks is entry `(R, c)` of `G` of twenty-one arrays, when row `r`
    of the input block is row `R` of the input array, the weight blocks hold the signs of the weight arrays, the bias
    blocks the bias arrays, the scale and shift blocks the folded normalisations of the statistics arrays, and the arrays
    are in the claim's domain. -/
theorem block_eq (x0 : Vec Ideal S1024x784 .f32) (x1 : Vec Ideal S768x784 .bf16) (x2 : Vec Ideal S1x768 .f32) (x3 : Vec Ideal S1x768 .f32) (x4 : Vec Ideal S1x768 .f32) (x5 : Vec Ideal S768x768 .bf16) (x6 : Vec Ideal S1x768 .f32) (x7 : Vec Ideal S1x768 .f32) (x8 : Vec Ideal S1x768 .f32) (x9 : Vec Ideal S768x768 .bf16) (x10 : Vec Ideal S1x768 .f32) (x11 : Vec Ideal S1x768 .f32) (x12 : Vec Ideal S1x768 .f32) (x13 : Vec Ideal S10x768 .bf16) (x14 : Vec Ideal S1x10 .f32)
    (a0 : S16384x784.Idx → EReal) (a1 : S768x784.Idx → EReal) (a2 : S768.Idx → EReal) (a3 : S768x768.Idx → EReal) (a4 : S768.Idx → EReal) (a5 : S768x768.Idx → EReal) (a6 : S768.Idx → EReal) (a7 : S10x768.Idx → EReal) (a8 : S10.Idx → EReal) (a9 : S768.Idx → EReal) (a10 : S768.Idx → EReal) (a11 : S768.Idx → EReal) (a12 : S768.Idx → EReal) (a13 : S768.Idx → EReal) (a14 : S768.Idx → EReal) (a15 : S768.Idx → EReal) (a16 : S768.Idx → EReal) (a17 : S768.Idx → EReal) (a18 : S768.Idx → EReal) (a19 : S768.Idx → EReal) (a20 : S768.Idx → EReal)
    (r : Fin 1024) (R : Fin 16384) (cc : Fin 10)
    (h0 : ∀ q : Fin 784, x0 (ix2 r q) = a0 (ix2 R q))
    (h1 : ∀ (j : Fin 768) (q : Fin 784), x1 (ix2 j q) = sgn (a1 (ix2 j q)))
    (h2 : ∀ j : Fin 768, x2 (ix2 (0 : Fin 1) j) = a2 (ix1 j))
    (h3 : ∀ j : Fin 768, x3 (ix2 (0 : Fin 1) j) = scale (a9 (ix1 j)) (a12 (ix1 j)))
    (h4 : ∀ j : Fin 768, x4 (ix2 (0 : Fin 1) j) = shift (a10 (ix1 j)) (a11 (ix1 j)) (a9 (ix1 j)) (a12 (ix1 j)))
    (h5 : ∀ (j q : Fin 768), x5 (ix2 j q) = sgn (a3 (ix2 j q)))
    (h6 : ∀ j : Fin 768, x6 (ix2 (0 : Fin 1) j) = a4 (ix1 j))
    (h7 : ∀ j : Fin 768, x7 (ix2 (0 : Fin 1) j) = scale (a13 (ix1 j)) (a16 (ix1 j)))
    (h8 : ∀ j : Fin 768, x8 (ix2 (0 : Fin 1) j) = shift (a14 (ix1 j)) (a15 (ix1 j)) (a13 (ix1 j)) (a16 (ix1 j)))
    (h9 : ∀ (j q : Fin 768), x9 (ix2 j q) = sgn (a5 (ix2 j q)))
    (h10 : ∀ j : Fin 768, x10 (ix2 (0 : Fin 1) j) = a6 (ix1 j))
    (h11 : ∀ j : Fin 768, x11 (ix2 (0 : Fin 1) j) = scale (a17 (ix1 j)) (a20 (ix1 j)))
    (h12 : ∀ j : Fin 768, x12 (ix2 (0 : Fin 1) j) = shift (a18 (ix1 j)) (a19 (ix1 j)) (a17 (ix1 j)) (a20 (ix1 j)))
    (h13 : ∀ (cc : Fin 10) (q : Fin 768), x13 (ix2 cc q) = a7 (ix2 cc q))
    (h14 : ∀ cc : Fin 10, x14 (ix2 (0 : Fin 1) cc) = a8 (ix1 cc))
    (hD : Cert.InputDomain.Holds a0 a1 a2 a3 a4 a5 a6 a7 a8 a9 a10 a11 a12 a13 a14 a15 a16 a17 a18 a19 a20) :
    k0_pay1 (k0_pay3 (k0_pay2 x0 x1 x2 x3 x4 x5) x6 x7 x8 x9 x10 x11 x12) (Scalar.ofBits .f32 0x3F800000#32) (k0_pay4 (F := Ideal)) x13 x14 (ix2 r cc)
      = G a0 a1 a2 a3 a4 a5 a6 a7 a8 a9 a10 a11 a12 a13 a14 a15 a16 a17 a18 a19 a20 (ix2 R cc) := by
  refine (Cert.KerPay.body_apply x0 x1 x2 x3 x4 x5 x6 x7 x8 x9 x10 x11 x12 x13 x14 r cc).trans ?_
  rw [funext h0,
    (funext fun p => funext (h1 p)),
    funext h2,
    funext h3,
    funext h4,
    (funext fun p => funext (h5 p)),
    funext h6,
    funext h7,
    funext h8,
    (funext fun p => funext (h9 p)),
    funext h10,
    funext h11,
    funext h12,
    (funext fun p => funext (h13 p)),
    funext h14]
  exact congrFun (rowK_eq_row (fun j q => a1 (ix2 j q)) (fun j => a2 (ix1 j)) (fun j q => a3 (ix2 j q)) (fun j => a4 (ix1 j)) (fun j q => a5 (ix2 j q)) (fun j => a6 (ix1 j)) (fun j q => a7 (ix2 j q)) (fun j => a8 (ix1 j)) (fun j => a9 (ix1 j)) (fun j => a10 (ix1 j)) (fun j => a11 (ix1 j)) (fun j => a12 (ix1 j)) (fun j => a13 (ix1 j)) (fun j => a14 (ix1 j)) (fun j => a15 (ix1 j)) (fun j => a16 (ix1 j)) (fun j => a17 (ix1 j)) (fun j => a18 (ix1 j)) (fun j => a19 (ix1 j)) (fun j => a20 (ix1 j))
      (fun q => a0 (ix2 R q))
      (fun q => hD.fin0 _) (fun j => hD.fin2 _) (fun j => hD.fin4 _) (fun j => hD.fin6 _) (fun j => hD.fin9 _) (fun j => hD.fin10 _) (fun j => hD.fin11 _) (fun j => hD.fin12 _) (fun j => hD.nn12 _) (fun j => hD.fin13 _) (fun j => hD.fin14 _) (fun j => hD.fin15 _) (fun j => hD.fin16 _) (fun j => hD.nn16 _) (fun j => hD.fin17 _) (fun j => hD.fin18 _) (fun j => hD.fin19 _) (fun j => hD.fin20 _) (fun j => hD.nn20 _)) cc

/-! ## What a point writes back -/

/-- The claim's domain for core `c`'s arguments: every entry a real number, the three variance arrays non-negative. -/
abbrev Dom (c : Dev nD) : Prop := Cert.InputDomain.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

set_option maxHeartbeats 1000000 in
/-- WHAT POINT `t` WRITES BACK is block `t` of `G` of the argument arrays. -/
theorem flushed_eq (c : Dev nD) (hD : Dom m c) (t : Fin cfg0.N) :
    (dats m 0 c).flushed 15 t = ((cfg0.win 15).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  rw [Cert.KernelIdeal.Value.flushed15]
  unfold out0_15
  rw [View.canon_unit_zero hz]
  simp only [View.ld_unit_zero (S := S1024x784) hz, View.ld_unit_zero (S := S768x784) hz, View.ld_unit_zero (S := S1x768) hz,
    View.ld_unit_zero (S := S768x768) hz, View.ld_unit_zero (S := S10x768) hz, View.ld_unit_zero (S := S1x10) hz]
  funext y
  obtain ⟨r, cc, rfl⟩ : ∃ (r : Fin 1024) (cc : Fin 10), y = ix2 r cc := ⟨y 0, y 1, eq_ix2 y⟩
  show k0_pay1 (k0_pay3 (k0_pay2 (iblk m c 0 t) (iblk m c 1 t) (iblk m c 2 t) (iblk m c 3 t) (iblk m c 4 t) (iblk m c 5 t)) (iblk m c 6 t) (iblk m c 7 t) (iblk m c 8 t) (iblk m c 9 t) (iblk m c 10 t) (iblk m c 11 t) (iblk m c 12 t)) (Scalar.ofBits .f32 0x3F800000#32) (k0_pay4 (F := Ideal))
        (iblk m c 13 t) (iblk m c 14 t) (ix2 r cc)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (((cfg0.win 15).blk t).view.emb (ix2 r cc))
  rw [emb15]
  exact block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
    r (arow t r) cc (blk0 m c t r) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) hD

/-! ## The blocks tile the result -/

/-- An index of the result is in point `t`'s block iff each coordinate is in the block's range on its axis. -/
theorem mem_blk (t : Fin cfg0.N) (i : S16384x10.Idx) :
    i ∈ ((cfg0.win 15).blk t).view.set ↔ ∀ a : Fin 2, win0_15.index t a * S1024x10.size a ≤ (i a).val
      ∧ (i a).val < win0_15.index t a * S1024x10.size a + S1024x10.size a := by
  show i ∈ ((View.whole main_v41).slice (win0_15.rect t)).set ↔ _
  rw [View.set_slice_whole, Rect.mem_set_unit]
  exact Iff.rfl

/-- Row `i` of the result lies in the block of point `i / 1024`. -/
theorem cover (i : S16384x10.Idx) : ∃ t : Fin cfg0.N, (cfg0.win 15).flush t = true ∧ i ∈ ((cfg0.win 15).blk t).view.set := by
  have hi0 : (i 0).val < 16384 := (i 0).isLt
  have hi1 : (i 1).val < 10 := (i 1).isLt
  have ht : (i 0).val / 1024 < 16 := by omega
  obtain ⟨h0, h1, -⟩ := idx_facts ⟨(i 0).val / 1024, ht⟩
  refine ⟨⟨(i 0).val / 1024, ht⟩, flush0_15 _, ?_⟩
  rw [mem_blk]
  intro a
  match a with
  | ⟨0, _⟩ =>
    show win0_15.index ⟨(i 0).val / 1024, ht⟩ (0 : Fin 2) * 1024 ≤ (i 0).val
      ∧ (i 0).val < win0_15.index ⟨(i 0).val / 1024, ht⟩ (0 : Fin 2) * 1024 + 1024
    rw [h0]
    show (i 0).val / 1024 * 1024 ≤ (i 0).val ∧ (i 0).val < (i 0).val / 1024 * 1024 + 1024
    omega
  | ⟨1, _⟩ =>
    show win0_15.index ⟨(i 0).val / 1024, ht⟩ (1 : Fin 2) * 10 ≤ (i 1).val
      ∧ (i 1).val < win0_15.index ⟨(i 0).val / 1024, ht⟩ (1 : Fin 2) * 10 + 10
    rw [h1]
    omega

/-- THE RESULT ARRAY after the run is `G` of the argument arrays. -/
theorem final (c : Dev nD) (hD : Dom m c) : (dats m 0 c).arrAt 15 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (dats m 0 c).arrAt_eq_of_cover 15 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (fun t _ => flushed_eq m c hD t) cover

/-! ## The run, read -/

/-- Every weakly fair execution terminates with the result array at `G` of the argument arrays, the arguments unchanged. -/
theorem run (hD : ∀ c : Dev nD, Dom m c) :
    θ_run defs (onTc (τ := τ) (main (F := Ideal))) ⟨m, fun _ => 0, ρ⟩ fun r => ∀ c : Dev nD,
      r.2.mem ((c : Thread nD τ).loc main_v41) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c (hD c)), (h c).2⟩)
    (Cert.KernelIdeal.Value.run_blocks m ρ)

end Cert.KerBlocks

end
-- ==== Proof.lean ====
/-
  The certificate of a four-layer binarised network: a batch of 16384 input rows of 784 features goes through three
  hidden layers of 768 features — weights replaced by their signs, a bias, a normalisation by stored statistics
  `(h - μ) · (γ · (v + ε)^(-1/2)) + β`, a clamp to `[-1, 1]`, and (into the next layer) the sign of the result — and a
  plain affine read-out onto ten logits followed by the logarithm of their softmax.

  The kernel computes this sixteen row-blocks at a time, with the weights binarised and each normalisation folded into a
  scale `a = γ · (v + ε)^(-1/2)` and a shift `β - μ · a` beforehand; its first layer also adds the product of `x - x`
  against the weights, which is how it carries the low half of a two-term split of the input once the change of format
  in between is the identity. The reference binarises by `t + (sign t - t)` and normalises as written.

  Over the extended reals the two agree wherever every argument is a real number and the three variance arrays are
  non-negative (so that `v + ε > 0` and every scale is a real number): then `x - x = 0`, `t + (s - t) = s`, and
  `(h - μ) · a + β = h · a + (β - μ · a)`. Both programs are shown to end with the result array at the one function
  `Cert.Mlp.G` of the argument arrays (Proof/Spec.lean): the kernel in Proof/KerPay.lean (the body's arithmetic at an
  entry), Proof/KerHost.lean (what the host operations before the call leave in the staged arrays) and
  Proof/KerBlocks.lean (from the sixteen blocks to the array); the reference in Proof/RefG.lean, over its run read one
  operation at a time. Proof/InputDomain.lean reads the domain off the precondition.
-/
import proofs.«141077_j45140106281104_2_alg».proof.Defs
import proofs.«141077_j45140106281104_2_alg».proof.Proof.Gen.Kernel
import proofs.«141077_j45140106281104_2_alg».proof.Proof.Gen.Kernel.Skeleton
import proofs.«141077_j45140106281104_2_alg».proof.Proof.Gen.Kernel.Launch
import proofs.«141077_j45140106281104_2_alg».proof.Proof.Gen.Kernel.Points
import proofs.«141077_j45140106281104_2_alg».proof.Proof.Gen.Kernel.Frame
import proofs.«141077_j45140106281104_2_alg».proof.Proof.Gen.KernelIdeal
import proofs.«141077_j45140106281104_2_alg».proof.Proof.Gen.KernelIdeal.Skeleton
import proofs.«141077_j45140106281104_2_alg».proof.Proof.Gen.KernelIdeal.Launch
import proofs.«141077_j45140106281104_2_alg».proof.Proof.Gen.KernelIdeal.Points
import proofs.«141077_j45140106281104_2_alg».proof.Proof.Gen.KernelIdeal.Frame
import proofs.«141077_j45140106281104_2_alg».proof.Proof.Gen.KernelIdeal.Value
import proofs.«141077_j45140106281104_2_alg».proof.Proof.Gen.ReferenceIdeal
import proofs.«141077_j45140106281104_2_alg».proof.Proof.Gen.Pre_finite_inputs
import proofs.«141077_j45140106281104_2_alg».proof.Proof.Spec
import proofs.«141077_j45140106281104_2_alg».proof.Proof.InputDomain
import proofs.«141077_j45140106281104_2_alg».proof.Proof.RefRun
import proofs.«141077_j45140106281104_2_alg».proof.Proof.RefRead
import proofs.«141077_j45140106281104_2_alg».proof.Proof.RefG
import proofs.«141077_j45140106281104_2_alg».proof.Proof.KerPay
import proofs.«141077_j45140106281104_2_alg».proof.Proof.KerHost
import proofs.«141077_j45140106281104_2_alg».proof.Proof.KerBlocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one rewrite of the idealization: narrowing the input block to the half-width format and widening it back is
    the identity on extended reals (and the rounding through that format on words). -/
theorem preserves : Cert.preserves_Kernel_KernelIdeal :=
  IdealRules.truncf_extf.statement Cert.KernelIdeal.S1024x784 .f32 .bf16

/-- From memories that agree on the arguments, both idealized programs end with the result array at `Cert.Mlp.G` of
    the arguments: the precondition puts the arguments in the domain where the two arrangements agree. -/
theorem algebraic : Cert.algebraic_KernelIdeal_ReferenceIdeal := by
  intro m ρ m' ρ' hpre hagree
  have hD : ∀ c, Cert.KerBlocks.Dom m c := fun c =>
    Cert.InputDomain.holds_of_pre _ _ _ _ _ _ _ _ _ _ _ _ _ _ _ _ _ _ _ _ _ (hpre c)
  refine ⟨_, Cert.KerBlocks.run m ρ hD, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17, e18, e19, e20⟩ := hagree c
  rw [Cert.ReferenceIdeal.ReadP.val_main_v92_eq, e0, e1, e2, e3, e4, e5, e6, e7, e8, e9, e10, e11, e12, e13, e14, e15, e16, e17, e18, e19, e20]
  exact Cert.RefG.ref_eq_G _ _ _ _ _ _ _ _ _ _ _ _ _ _ _ _ _ _ _ _ _ (hD c).fin1 (hD c).fin3 (hD c).fin5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
